-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v61_0)) (v1 : (c : Dev Cert.KernelIdeal.nD) → Buf (Elt Ideal) ((c.tc : Thread Cert.KernelIdeal.nD Cert.KernelIdeal.τ).loc Cert.KernelIdeal.main_v61_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61_0) = v0 c
          ∧ r.2.mem ((c.tc : Thread Cert.KernelIdeal.nD Cert.KernelIdeal.τ).loc Cert.KernelIdeal.main_v61_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S8x128 : Shape := ⟨2, ![8, 128]⟩
abbrev S8 : Shape := ⟨1, ![8]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S8x128 : S_.BroadcastsInDim S8x128 (![] : Fin 0 → Fin S8x128.rank)
  reducesTo_S8x128_S_d0_1 : S8x128.ReducesTo [0, 1] S_
  bcast_S_S8 : S_.BroadcastsInDim S8 (![] : Fin 0 → Fin S8.rank)
  reducesTo_S8_S_d0 : S8.ReducesTo [0] S_

variable [Facts]

def fn_part2 {F : FTy → Type} [FloatOps F] (main_arg8 : FVec F S8x128 .f32) (main_arg9 : FVec F S8 .f32) (main_arg10 : FVec F S8x128 .f32) (main_v33 : IVec S_ 1) : IVec S_ 1 :=
  let main_v34 : FVec F S8x128 .f32 := Host.absf main_arg8
  let main_cst_12 : FVec F S_ .f32 := constant S_ .f32 0x7F800000#32
  let main_v35 : FVec F S8x128 .f32 := broadcastInDim S8x128 ![] bcast_S_S8x128 main_cst_12
  let main_v36 : IVec S8x128 1 := cmpf .olt main_v34 main_v35
  let main_c_13 : IVec S_ 1 := constantI S_ 1 1#1
  let main_v37 : IVec S_ 1 := (fun x v => Host.reduce IntOp.andi x v reducesTo_S8x128_S_d0_1 h_S_) main_v36 main_c_13
  let main_v38 : IVec S_ 1 := andi main_v33 main_v37
  let main_v39 : FVec F S8 .f32 := Host.absf main_arg9
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_v44 : FVec F S8x128 .f32 := Host.absf main_arg10
  let main_cst_16 : FVec F S_ .f32 := constant S_ .f32 0x7F800000#32
  let main_v45 : FVec F S8x128 .f32 := broadcastInDim S8x128 ![] bcast_S_S8x128 main_cst_16
  let main_v46 : IVec S8x128 1 := cmpf .olt main_v44 main_v45
  let main_c_17 : IVec S_ 1 := constantI S_ 1 1#1
  let main_v47 : IVec S_ 1 := (fun x v => Host.reduce IntOp.andi x v reducesTo_S8x128_S_d0_1 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S8x128 .f32) (main_arg9 : FVec F S8 .f32) (main_arg10 : FVec F S8x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S8x128 .f32) (main_arg9 : FVec F S8 .f32) (main_arg10 : FVec F S8x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S8x128 : Shape := ⟨2, ![8, 128]⟩
abbrev S8 : Shape := ⟨1, ![8]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S128x8 : Shape := ⟨2, ![128, 8]⟩
abbrev S1x128 : Shape := ⟨2, ![1, 128]⟩
abbrev S1x8 : Shape := ⟨2, ![1, 8]⟩
abbrev S1600000x128 : Shape := ⟨2, ![1600000, 128]⟩
abbrev S5000x128 : Shape := ⟨2, ![5000, 128]⟩
abbrev S100000x8 : Shape := ⟨2, ![100000, 8]⟩
abbrev S5000x8 : Shape := ⟨2, ![5000, 8]⟩
abbrev S5000 : Shape := ⟨1, ![5000]⟩
abbrev S5000x1 : Shape := ⟨2, ![5000, 1]⟩

abbrev nBuf : Space → Nat
  | .hbm => 88
  | .vmem => 29
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S8x128, .f32⟩
  | .hbm, ⟨9, _⟩ => ⟨S8, .f32⟩
  | .hbm, ⟨10, _⟩ => ⟨S8x128, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000x1, .f32⟩
  | .hbm, ⟨17, _⟩ => ⟨S_, .f32⟩
  | .hbm, ⟨18, _⟩ => ⟨S100000x1, .f32⟩
  | .hbm, ⟨19, _⟩ => ⟨S1600000x1, .i32⟩
  | .hbm, ⟨20, _⟩ => ⟨S100000x1, .f32⟩
  | .hbm, ⟨21, _⟩ => ⟨S128x128, .f32⟩
  | .hbm, ⟨22, _⟩ => ⟨S128x128, .f32⟩
  | .hbm, ⟨23, _⟩ => ⟨S128x128, .f32⟩
  | .hbm, ⟨24, _⟩ => ⟨S128x128, .f32⟩
  | .hbm, ⟨25, _⟩ => ⟨S128x8, .f32⟩
  | .hbm, ⟨26, _⟩ => ⟨S128x8, .f32⟩
  | .hbm, ⟨27, _⟩ => ⟨S1x128, .f32⟩
  | .hbm, ⟨28, _⟩ => ⟨S1x128, .f32⟩
  | .hbm, ⟨29, _⟩ => ⟨S1x8, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S_, .f32⟩
  | .hbm, ⟨44, _⟩ => ⟨S100000x1, .f32⟩
  | .hbm, ⟨45, _⟩ => ⟨S100000x1, .f32⟩
  | .hbm, ⟨46, _⟩ => ⟨S100000x128, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S_, .f32⟩
  | .hbm, ⟨63, _⟩ => ⟨S100000x1, .f32⟩
  | .hbm, ⟨64, _⟩ => ⟨S100000x1, .f32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x128, .f32⟩
  | .hbm, ⟨77, _⟩ => ⟨S_, .f32⟩
  | .hbm, ⟨78, _⟩ => ⟨S100000x128, .f32⟩
  | .hbm, ⟨79, _⟩ => ⟨S1600000x1, .i32⟩
  | .hbm, ⟨80, _⟩ => ⟨S100000x128, .f32⟩
  | .hbm, ⟨81, _⟩ => ⟨S_, .f32⟩
  | .hbm, ⟨82, _⟩ => ⟨S100000x1, .f32⟩
  | .hbm, ⟨83, _⟩ => ⟨S100000x1, .f32⟩
  | .hbm, ⟨84, _⟩ => ⟨S100000x128, .f32⟩
  | .hbm, ⟨85, _⟩ => ⟨S100000x128, .f32⟩
  | .hbm, ⟨86, _⟩ => ⟨S100000x8, .f32⟩
  | .hbm, ⟨87, _⟩ => ⟨S100000x8, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x8, .f32⟩
  | .local _ .vmem, ⟨23, _⟩ => ⟨S1x8, .f32⟩
  | .local _ .vmem, ⟨24, _⟩ => ⟨S128x8, .f32⟩
  | .local _ .vmem, ⟨25, _⟩ => ⟨S5000x8, .f32⟩
  | .local _ .vmem, ⟨26, _⟩ => ⟨S5000x8, .f32⟩
  | .local _ .vmem, ⟨27, _⟩ => ⟨S5000x8, .f32⟩
  | .local _ .vmem, ⟨28, _⟩ => ⟨S5000x8, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_4 : Ref sig .tc := ⟨.hbm, 49, rfl⟩
abbrev main_v32 : Ref sig .tc := ⟨.hbm, 50, rfl⟩
abbrev main_v33 : Ref sig .tc := ⟨.hbm, 51, rfl⟩
abbrev main_c_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_6 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_8 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61_0 : Ref sig .tc := ⟨.hbm, 86, rfl⟩
abbrev main_v61_1 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc2_stg6_0 : Ref sig .tc := ⟨.vmem, 27, rfl⟩
abbrev cc2_stg6_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc2_sem6_0 : DmaSem sig := 27
abbrev cc2_sem6_1 : DmaSem sig := 28

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x8 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x8 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x8 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x8 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S5000x8 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000x1 : S_.BroadcastsInDim S1600000x1 (![] : Fin 0 → Fin S1600000x1.rank)
  bcast_S_S100000x1 : S_.BroadcastsInDim S100000x1 (![] : Fin 0 → Fin S100000x1.rank)
  bcast_S1600000_S1600000x1_0 : S1600000.BroadcastsInDim S1600000x1 (![0] : Fin 1 → Fin S1600000x1.rank)
  transposes_S128x128_S128x128_1_0 : S128x128.Transposes [1, 0] S128x128
  transposes_S8x128_S128x8_1_0 : S8x128.Transposes [1, 0] S128x8
  shapeCasts_S128_S1x128 : S128.ShapeCasts S1x128
  shapeCasts_S8_S1x8 : S8.ShapeCasts S1x8
  bcast_S_S1600000 : S_.BroadcastsInDim S1600000 (![] : Fin 0 → Fin S1600000.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x8_S128x8_0_0 : ∀ a, (![0, 0] : Fin 2 → Nat) a + S128x8.size a ≤ S128x8.size a
  h_S128x8 : 0 < S128x8.numel
  shapeCasts_S128x8_S128x8 : S128x8.ShapeCasts S128x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  inb_S5000x8_S5000x8_0_0 : ∀ a, (![0, 0] : Fin 2 → Nat) a + S5000x8.size a ≤ S5000x8.size a
  h_S5000x8 : 0 < S5000x8.numel
  reduces_S5000x8_S5000 : S5000x8.Reduces [1] S5000
  shapeCasts_S5000_S5000x1 : S5000.ShapeCasts S5000x1
  broadcasts_S5000x1_S5000x8 : S5000x1.Broadcasts S5000x8
  scatter_S100000x1_S1600000x1_S1600000x1_1_0_0_1_wf : ScatterDims.WF S100000x1 S1600000x1 S1600000x1 [1] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x8_S5000x8_1_0_0_1_n_n_wf : DotDims.WF S5000x128 S128x8 S5000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x8.size a ≤ S128x8.size a
  hwx2_2 : ∀ i : grid2.Coords, EltTy.bits .f32 = 32 ∨ (Rect.block (s := S128x8) S128x8.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x8.size a ≤ S1x8.size a
  hwx2_3 : ∀ i : grid2.Coords, EltTy.bits .f32 = 32 ∨ (Rect.block (s := S1x8) S1x8.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x8.size a ≤ S128x8.size a
  hwx2_4 : ∀ i : grid2.Coords, EltTy.bits .f32 = 32 ∨ (Rect.block (s := S128x8) S128x8.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x8.size a ≤ S100000x8.size a
  hwx2_5 : ∀ i : grid2.Coords, EltTy.bits .f32 = 32 ∨ (Rect.block (s := S100000x8) S5000x8.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x8.size a ≤ S100000x8.size a
  hwx2_6 : ∀ i : grid2.Coords, EltTy.bits .f32 = 32 ∨ (Rect.block (s := S100000x8) S5000x8.size (cc2_transform_6 i) (hinb2_6 i)).WholeWords (EltTy.packing .f32)

variable [Facts₀]

def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x8_S5000x8_1_0_0_1_n_n : DotDims S5000x128 S128x8 S5000x8 where
  lhsContracting := [1]
  rhsContracting := [0]
  lhsNonContracting := [0]
  rhsNonContracting := [1]
  lhsBatch := []
  rhsBatch := []
  wf := dot_S5000x128_S128x8_S5000x8_1_0_0_1_n_n_wf

abbrev win0_0 : Pipeline.Window sig grid0 :=
  Pipeline.Window.ofSpec (Memref.whole main_v30) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v60) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S128x8.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v16) S1x8.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v13) S128x8.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v61_0) S5000x8.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v61_1) S5000x8.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S8x128 : Shape := ⟨2, ![8, 128]⟩
abbrev S8 : Shape := ⟨1, ![8]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S128x8 : Shape := ⟨2, ![128, 8]⟩
abbrev S100000x8 : Shape := ⟨2, ![100000, 8]⟩
abbrev S1x8 : Shape := ⟨2, ![1, 8]⟩
abbrev S100000 : Shape := ⟨1, ![100000]⟩

abbrev nBuf : Space → Nat
  | .hbm => 132
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128x128, .f32⟩
  | 6 => ⟨S128, .f32⟩
  | 7 => ⟨S128x128, .f32⟩
  | 8 => ⟨S8x128, .f32⟩
  | 9 => ⟨S8, .f32⟩
  | 10 => ⟨S8x128, .f32⟩
  | 11 => ⟨S1x1600000, .i32⟩
  | 12 => ⟨S1600000, .i32⟩
  | 13 => ⟨S1x1600000, .i32⟩
  | 14 => ⟨S1600000, .i32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S1600000x128, .f32⟩
  | 24 => ⟨S_, .f32⟩
  | 25 => ⟨S100000x128, .f32⟩
  | 26 => ⟨S1600000x1, .i32⟩
  | 27 => ⟨S100000x128, .f32⟩
  | 28 => ⟨S_, .f32⟩
  | 29 => ⟨S1600000x1, .f32⟩
  | 30 => ⟨S_, .f32⟩
  | 31 => ⟨S100000x1, .f32⟩
  | 32 => ⟨S1600000x1, .i32⟩
  | 33 => ⟨S100000x1, .f32⟩
  | 34 => ⟨S_, .f32⟩
  | 35 => ⟨S100000x1, .f32⟩
  | 36 => ⟨S100000x1, .f32⟩
  | 37 => ⟨S100000x128, .f32⟩
  | 38 => ⟨S100000x128, .f32⟩
  | 39 => ⟨S128x128, .f32⟩
  | 40 => ⟨S100000x128, .f32⟩
  | 41 => ⟨S1x128, .f32⟩
  | 42 => ⟨S100000x128, .f32⟩
  | 43 => ⟨S100000x128, .f32⟩
  | 44 => ⟨S128x128, .f32⟩
  | 45 => ⟨S100000x128, .f32⟩
  | 46 => ⟨S100000x128, .f32⟩
  | 47 => ⟨S_, .f32⟩
  | 48 => ⟨S100000x128, .f32⟩
  | 49 => ⟨S100000x128, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000x128, .f32⟩
  | 59 => ⟨S_, .f32⟩
  | 60 => ⟨S100000x128, .f32⟩
  | 61 => ⟨S1600000x1, .i32⟩
  | 62 => ⟨S100000x128, .f32⟩
  | 63 => ⟨S_, .f32⟩
  | 64 => ⟨S1600000x1, .f32⟩
  | 65 => ⟨S_, .f32⟩
  | 66 => ⟨S100000x1, .f32⟩
  | 67 => ⟨S1600000x1, .i32⟩
  | 68 => ⟨S100000x1, .f32⟩
  | 69 => ⟨S_, .f32⟩
  | 70 => ⟨S100000x1, .f32⟩
  | 71 => ⟨S100000x1, .f32⟩
  | 72 => ⟨S100000x128, .f32⟩
  | 73 => ⟨S100000x128, .f32⟩
  | 74 => ⟨S128x128, .f32⟩
  | 75 => ⟨S100000x128, .f32⟩
  | 76 => ⟨S1x128, .f32⟩
  | 77 => ⟨S100000x128, .f32⟩
  | 78 => ⟨S100000x128, .f32⟩
  | 79 => ⟨S128x128, .f32⟩
  | 80 => ⟨S100000x128, .f32⟩
  | 81 => ⟨S100000x128, .f32⟩
  | 82 => ⟨S_, .f32⟩
  | 83 => ⟨S100000x128, .f32⟩
  | 84 => ⟨S100000x128, .f32⟩
  | 85 => ⟨S_, .i32⟩
  | 86 => ⟨S1600000, .i32⟩
  | 87 => ⟨S1600000, .i1⟩
  | 88 => ⟨S_, .i32⟩
  | 89 => ⟨S1600000, .i32⟩
  | 90 => ⟨S1600000, .i32⟩
  | 91 => ⟨S1600000, .i32⟩
  | 92 => ⟨S1600000x1, .i32⟩
  | 93 => ⟨S1600000x128, .f32⟩
  | 94 => ⟨S_, .f32⟩
  | 95 => ⟨S100000x128, .f32⟩
  | 96 => ⟨S1600000x1, .i32⟩
  | 97 => ⟨S100000x128, .f32⟩
  | 98 => ⟨S_, .f32⟩
  | 99 => ⟨S1600000x1, .f32⟩
  | 100 => ⟨S_, .f32⟩
  | 101 => ⟨S100000x1, .f32⟩
  | 102 => ⟨S1600000x1, .i32⟩
  | 103 => ⟨S100000x1, .f32⟩
  | 104 => ⟨S_, .f32⟩
  | 105 => ⟨S100000x1, .f32⟩
  | 106 => ⟨S100000x1, .f32⟩
  | 107 => ⟨S100000x128, .f32⟩
  | 108 => ⟨S100000x128, .f32⟩
  | 109 => ⟨S128x8, .f32⟩
  | 110 => ⟨S100000x8, .f32⟩
  | 111 => ⟨S1x8, .f32⟩
  | 112 => ⟨S100000x8, .f32⟩
  | 113 => ⟨S100000x8, .f32⟩
  | 114 => ⟨S128x8, .f32⟩
  | 115 => ⟨S100000x8, .f32⟩
  | 116 => ⟨S100000x8, .f32⟩
  | 117 => ⟨S_, .f32⟩
  | 118 => ⟨S100000, .f32⟩
  | 119 => ⟨S_, .f32⟩
  | 120 => ⟨S100000, .f32⟩
  | 121 => ⟨S100000, .f32⟩
  | 122 => ⟨S100000x1, .f32⟩
  | 123 => ⟨S100000x8, .f32⟩
  | 124 => ⟨S100000x8, .f32⟩
  | 125 => ⟨S100000x8, .f32⟩
  | 126 => ⟨S_, .f32⟩
  | 127 => ⟨S100000, .f32⟩
  | _ => ⟨S100000x128, .f32⟩

abbrev hbmTy0_1 (i : Nat) : BufTy := match i % 128 with
  | 0 => ⟨S100000x1, .f32⟩
  | 1 => ⟨S100000x1, .f32⟩
  | 2 => ⟨S100000x8, .f32⟩
  | 3 => ⟨S100000x8, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_call0_cst : Ref sig .tc := ⟨.hbm, 47, rfl⟩
abbrev main_call0_v0 : Ref sig .tc := ⟨.hbm, 48, rfl⟩
abbrev main_v30 : Ref sig .tc := ⟨.hbm, 49, rfl⟩
abbrev main_c_4 : Ref sig .tc := ⟨.hbm, 50, rfl⟩
abbrev main_v31 : Ref sig .tc := ⟨.hbm, 51, rfl⟩
abbrev main_v32 : Ref sig .tc := ⟨.hbm, 52, rfl⟩
abbrev main_c_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_7 : Ref sig .tc := ⟨.hbm, 63, rfl⟩
abbrev main_v41 : Ref sig .tc := ⟨.hbm, 64, rfl⟩
abbrev main_cst_8 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_9 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_call1_cst : Ref sig .tc := ⟨.hbm, 82, rfl⟩
abbrev main_call1_v0 : Ref sig .tc := ⟨.hbm, 83, rfl⟩
abbrev main_v57 : Ref sig .tc := ⟨.hbm, 84, rfl⟩
abbrev main_c_10 : Ref sig .tc := ⟨.hbm, 85, rfl⟩
abbrev main_v58 : Ref sig .tc := ⟨.hbm, 86, rfl⟩
abbrev main_v59 : Ref sig .tc := ⟨.hbm, 87, rfl⟩
abbrev main_c_11 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_12 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_13 : Ref sig .tc := ⟨.hbm, 98, rfl⟩
abbrev main_v68 : Ref sig .tc := ⟨.hbm, 99, rfl⟩
abbrev main_cst_14 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_15 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_call2_cst : Ref sig .tc := ⟨.hbm, 117, rfl⟩
abbrev main_call2_v0 : Ref sig .tc := ⟨.hbm, 118, rfl⟩
abbrev main_call2_cst_0 : Ref sig .tc := ⟨.hbm, 119, rfl⟩
abbrev main_call2_v1 : Ref sig .tc := ⟨.hbm, 120, rfl⟩
abbrev main_call2_v2 : Ref sig .tc := ⟨.hbm, 121, rfl⟩
abbrev main_call2_v3 : Ref sig .tc := ⟨.hbm, 122, rfl⟩
abbrev main_call2_v4 : Ref sig .tc := ⟨.hbm, 123, rfl⟩
abbrev main_call2_v5 : Ref sig .tc := ⟨.hbm, 124, rfl⟩
abbrev main_call2_v6 : Ref sig .tc := ⟨.hbm, 125, rfl⟩
abbrev main_call2_cst_1 : Ref sig .tc := ⟨.hbm, 126, rfl⟩
abbrev main_call2_v7 : Ref sig .tc := ⟨.hbm, 127, rfl⟩
abbrev main_call2_v8 : Ref sig .tc := ⟨.hbm, 128, rfl⟩
abbrev main_call2_v9 : Ref sig .tc := ⟨.hbm, 129, rfl⟩
abbrev main_call2_v10 : Ref sig .tc := ⟨.hbm, 130, rfl⟩
abbrev main_v84 : Ref sig .tc := ⟨.hbm, 131, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S8x128_S128x8_1_0 : S8x128.Transposes [1, 0] S128x8
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  reducesTo_S100000x8_S100000_d1 : S100000x8.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x8_0_1 : S100000x1.BroadcastsInDim S100000x8 (![0, 1] : Fin 2 → Fin S100000x8.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S100000x128_S128x128_S100000x128_1_0_0_1_n_n_wf : DotDims.WF S100000x128 S128x128 S100000x128 [1] [0] [0] [1] [] []
  dot_S100000x128_S128x8_S100000x8_1_0_0_1_n_n_wf : DotDims.WF S100000x128 S128x8 S100000x8 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x8_S100000x8_1_0_0_1_n_n : DotDims S100000x128 S128x8 S100000x8 where
  lhsContracting := [1]
  rhsContracting := [0]
  lhsNonContracting := [0]
  rhsNonContracting := [1]
  lhsBatch := []
  rhsBatch := []
  wf := dot_S100000x128_S128x8_S100000x8_1_0_0_1_n_n_wf

class Facts : Prop extends Facts₀ where

variable [Facts]
-- ==== Proof.KernelRun.lean ====
/-
  The kernel program's run with its two results named.

  @main is six segments: three stretches of host operations, each followed by a pipelined kernel region. The
  buffer contents at each boundary are a fold from the launch memory: after a host stretch, the stretch's
  operations applied; after a region, its arrays at what the pipeline's write-backs leave and every other buffer
  as it was. Every weakly fair execution terminates, and the final memory holds, at every buffer that lives
  for the whole program, the contents of the last boundary — in particular the two result arrays, which are the
  last region's two output arrays, and the eleven arguments, which nothing writes.
-/
import proofs.«111528_j13056700580225_1_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates; the two results end at the last boundary's contents, the
    arguments as launched. -/
theorem run : θ_run defs (onTc (τ := τ) (main (F := F))) ⟨m, fun _ => 0, ρ⟩ (fun r => ∀ c : Dev nD,
      r.2.mem ((c.tc : Thread nD τ).loc main_v61_0) = W6 m ρ c (Proc.devRef .tc main_v61_0)
      ∧ r.2.mem ((c.tc : Thread nD τ).loc main_v61_1) = W6 m ρ c (Proc.devRef .tc main_v61_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v61_0 (by decide)),
       h c _ (mem_uc main_v61_1 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.Results

end
-- ==== Proof.Stages.lean ====
/-
  The four pieces both programs are built from, as functions of their operands (at any float instance).

  `mean e h`: the mean of each node's in-neighbours' rows of `h` along the edge list `e` (row 0 the sources,
  row 1 the destinations): gather the sources' rows (a negative index wrapped by the number of nodes), add them up
  per destination, and divide by the number of in-edges, at least 1.
  `hidden A H Wl b Wr`: max (A · Wlᵀ + b + H · Wrᵀ, 0). `last A H Wl b Wr`: A · Wlᵀ + b + H · Wrᵀ for the
  eight-column output. `lsm X`: the row-wise log-softmax, X - M - log (∑ exp (X - M)) with M the row maximum.
  Both programs apply `mean` to the same edge list; it is never opened.
-/
import proofs.«111528_j13056700580225_1_alg».proof.ReferenceIdeal
import proofs.«111528_j13056700580225_1_alg».proof.Proof.Gen.ReferenceIdeal

noncomputable section

namespace Cert.ReferenceIdeal.Stages

open Cert.ReferenceIdeal Cert.ReferenceIdeal.Gen Idealize.ShloMosaic

variable {F : FTy → Type} [FloatOps F]

/-- The edges' source nodes: row 0 of the edge list. -/
def srcRow (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- The edges' destination nodes: row 1 of the edge list. -/
def dstRow (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- Each node's number of in-edges: ones added up per destination. -/
def countsOf (d : (⟨S1600000, .i32⟩ : BufTy).Contents (Elt F)) : (⟨S100000x1, .f32⟩ : BufTy).Contents (Elt F) :=
  Host.scatterAdd scatter_S100000x1_S1600000x1_S1600000x1_1_0_0_1 (broadcastInDim S100000x1 ![] bcast_S_S100000x1 (constant S_ .f32 0x00000000#32)) (broadcastInDim S1600000x1 ![0] bcast_S1600000_S1600000x1_0 d) (broadcastInDim S1600000x1 ![] bcast_S_S1600000x1 (constant S_ .f32 0x3F800000#32))

/-- The sources' rows of `h` added up per destination and divided by the in-degree, at least 1. -/
def meanOf (s d : (⟨S1600000, .i32⟩ : BufTy).Contents (Elt F)) (cnt : (⟨S100000x1, .f32⟩ : BufTy).Contents (Elt F))
    (h : (⟨S100000x128, .f32⟩ : BufTy).Contents (Elt F)) : (⟨S100000x128, .f32⟩ : BufTy).Contents (Elt F) :=
  Host.divf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 d) (Host.gather gather_S100000x128_S1600000x1_S1600000x128_1_0_n_n_0_1_1128 h (broadcastInDim S1600000x1 ![0] bcast_S1600000_S1600000x1_0 (select (cmpi .slt s (broadcastInDim S1600000 ![] bcast_S_S1600000 (constantI S_ 32 0#32))) (addi s (broadcastInDim S1600000 ![] bcast_S_S1600000 (constantI S_ 32 100000#32))) s)))) (broadcastInDim S100000x128 ![0, 1] bcast_S100000x1_S100000x128_0_1 (maximumf cnt (broadcastInDim S100000x1 ![] bcast_S_S100000x1 (constant S_ .f32 0x3F800000#32))))

/-- The mean over each node's in-neighbours of the rows of `h`. -/
def mean (e : (⟨S2x1600000, .i32⟩ : BufTy).Contents (Elt F)) (h : (⟨S100000x128, .f32⟩ : BufTy).Contents (Elt F)) :
    (⟨S100000x128, .f32⟩ : BufTy).Contents (Elt F) :=
  meanOf (srcRow e) (dstRow e) (countsOf (dstRow e)) h

/-- A hidden layer: the two projections and the bias, then the maximum with zero. -/
def hidden (A H : (⟨S100000x128, .f32⟩ : BufTy).Contents (Elt F)) (Wl : (⟨S128x128, .f32⟩ : BufTy).Contents (Elt F))
    (b : (⟨S128, .f32⟩ : BufTy).Contents (Elt F)) (Wr : (⟨S128x128, .f32⟩ : BufTy).Contents (Elt F)) :
    (⟨S100000x128, .f32⟩ : BufTy).Contents (Elt F) :=
  maximumf (addf (addf (Host.dotGeneral dot_S100000x128_S128x128_S100000x128_1_0_0_1_n_n none A (transpose S128x128 [1, 0] Wl transposes_S128x128_S128x128_1_0)) (broadcastInDim S100000x128 ![0, 1] bcast_S1x128_S100000x128_0_1 (broadcastInDim S1x128 ![1] bcast_S128_S1x128_1 b))) (Host.dotGeneral dot_S100000x128_S128x128_S100000x128_1_0_0_1_n_n none H (transpose S128x128 [1, 0] Wr transposes_S128x128_S128x128_1_0))) (broadcastInDim S100000x128 ![] bcast_S_S100000x128 (constant S_ .f32 0x00000000#32))

/-- The output layer: the two projections and the bias. -/
def last (A H : (⟨S100000x128, .f32⟩ : BufTy).Contents (Elt F)) (Wl : (⟨S8x128, .f32⟩ : BufTy).Contents (Elt F))
    (b : (⟨S8, .f32⟩ : BufTy).Contents (Elt F)) (Wr : (⟨S8x128, .f32⟩ : BufTy).Contents (Elt F)) :
    (⟨S100000x8, .f32⟩ : BufTy).Contents (Elt F) :=
  addf (addf (Host.dotGeneral dot_S100000x128_S128x8_S100000x8_1_0_0_1_n_n none A (transpose S128x8 [1, 0] Wl transposes_S8x128_S128x8_1_0)) (broadcastInDim S100000x8 ![0, 1] bcast_S1x8_S100000x8_0_1 (broadcastInDim S1x8 ![1] bcast_S8_S1x8_1 b))) (Host.dotGeneral dot_S100000x128_S128x8_S100000x8_1_0_0_1_n_n none H (transpose S128x8 [1, 0] Wr transposes_S8x128_S128x8_1_0))

/-- The row-wise log-softmax as the host operations spell it. -/
def lsm (X : (⟨S100000x8, .f32⟩ : BufTy).Contents (Elt F)) : (⟨S100000x8, .f32⟩ : BufTy).Contents (Elt F) :=
  subf (subf X (broadcastInDim S100000x8 ![0, 1] bcast_S100000x1_S100000x8_0_1 (broadcastInDim S100000x1 ![0] bcast_S100000_S100000x1_0 (maximumf (broadcastInDim S100000 ![] bcast_S_S100000 (constant S_ .f32 0xFF800000#32)) (Host.reduce FloatOps.maximumf X (constant S_ .f32 0xFF800000#32) reducesTo_S100000x8_S100000_d1 h_S_))))) (broadcastInDim S100000x8 ![0, 1] bcast_S100000x1_S100000x8_0_1 (Host.log (broadcastInDim S100000x1 ![0] bcast_S100000_S100000x1_0 (Host.reduceAdd (Host.exp (subf X (broadcastInDim S100000x8 ![0, 1] bcast_S100000x1_S100000x8_0_1 (broadcastInDim S100000x1 ![0] bcast_S100000_S100000x1_0 (maximumf (broadcastInDim S100000 ![] bcast_S_S100000 (constant S_ .f32 0xFF800000#32)) (Host.reduce FloatOps.maximumf X (constant S_ .f32 0xFF800000#32) reducesTo_S100000x8_S100000_d1 h_S_)))))) (constant S_ .f32 0x00000000#32) reducesTo_S100000x8_S100000_d1 h_S_))))

end Cert.ReferenceIdeal.Stages

end
-- ==== Proof.Layer.lean ====
/-
  One mean-aggregating graph-convolution layer and the row-wise log-softmax, as functions on matrices of
  extended reals, index by index.

  A layer takes the matrix A of neighbourhood means and the matrix H of the nodes' own features and returns
  A · Wl + H · Wr + b: at (r, c) the sum over k of A (r, k) · Wl (k, c), plus the sum over k of
  H (r, k) · Wr (k, c), plus b c. The two programs add these three terms in different orders; on the
  extended reals addition is commutative and associative, so the orders agree, with no finiteness needed
  (`affine_other_order`). A hidden layer is followed by max (·, 0).

  The log-softmax of a row z is z c - M - log (∑ d, exp (z d - M)) with M the row's maximum, taken as the
  fold of max from -∞ over the row.
-/
import Idealize.ShloMosaic.Lib.ValueIdx
import Idealize.ShloMosaic.PureOps.Ideal.Laws

noncomputable section

open scoped BigOperators

namespace Idealize.ShloMosaic.GraphLayer

open Idealize.ShloMosaic Idealize.ShloMosaic.ValueIdx

/-- `A · Wl + H · Wr + b` at an index, the two products added first. -/
def affine {n K d : ℕ} (A H : (⟨2, ![n, K]⟩ : Shape).Idx → EReal) (Wl Wr : (⟨2, ![K, d]⟩ : Shape).Idx → EReal)
    (b : Fin d → EReal) : (⟨2, ![n, d]⟩ : Shape).Idx → EReal :=
  fun i => (∑ k : Fin K, A (ix2 (i 0) k) * Wl (ix2 k (i 1)) + ∑ k : Fin K, H (ix2 (i 0) k) * Wr (ix2 k (i 1))) + b (i 1)

/-- The same three terms with the bias added before the second product: the same extended real. -/
theorem affine_other_order {n K d : ℕ} (A H : (⟨2, ![n, K]⟩ : Shape).Idx → EReal) (Wl Wr : (⟨2, ![K, d]⟩ : Shape).Idx → EReal)
    (b : Fin d → EReal) (i : (⟨2, ![n, d]⟩ : Shape).Idx) :
    (∑ k : Fin K, A (ix2 (i 0) k) * Wl (ix2 k (i 1)) + b (i 1)) + ∑ k : Fin K, H (ix2 (i 0) k) * Wr (ix2 k (i 1))
      = affine A H Wl Wr b i :=
  add_right_comm _ _ _

/-- max (·, 0), the zero being the float literal's value. -/
def relu {s : Shape} (Z : s.Idx → EReal) : s.Idx → EReal := fun i => max (Z i) (Ideal.ofBits .f32 0x00000000#32)

/-- Two layer values agree when their operands agree along the row and the column that the entry reads: the
    value at `j` of one and at `e` of the other depend only on row `j 0` / `e 0` of the left factors, column `j 1` / `e 1`
    of the right factors, and one bias entry. -/
theorem affine_congr {n N K d : ℕ} (X0 X1 : (⟨2, ![n, K]⟩ : Shape).Idx → EReal) (A H : (⟨2, ![N, K]⟩ : Shape).Idx → EReal)
    (X2 X4 Wl Wr : (⟨2, ![K, d]⟩ : Shape).Idx → EReal) (b b' : Fin d → EReal)
    (j : (⟨2, ![n, d]⟩ : Shape).Idx) (e : (⟨2, ![N, d]⟩ : Shape).Idx)
    (h0 : ∀ k : Fin K, X0 (ix2 (j 0) k) = A (ix2 (e 0) k)) (h1 : ∀ k : Fin K, X1 (ix2 (j 0) k) = H (ix2 (e 0) k))
    (h2 : ∀ k : Fin K, X2 (ix2 k (j 1)) = Wl (ix2 k (e 1))) (h4 : ∀ k : Fin K, X4 (ix2 k (j 1)) = Wr (ix2 k (e 1)))
    (hb : b (j 1) = b' (e 1)) :
    affine X0 X1 X2 X4 b j = affine A H Wl Wr b' e := by
  unfold affine
  simp only [h0, h1, h2, h4, hb]

/-- A row's maximum: the fold of max from the literal -∞ over the row's entries. -/
def rowMax {n d : ℕ} (Z : (⟨2, ![n, d]⟩ : Shape).Idx → EReal) (r : Fin n) : EReal :=
  (Finset.univ : Finset (Fin d)).fold max (Ideal.ofBits .f32 0xFF800000#32) (fun q => Z (ix2 r q))

/-- The row-wise log-softmax: z - M - log (∑ exp (z - M)). -/
def logSoftmax {n d : ℕ} (Z : (⟨2, ![n, d]⟩ : Shape).Idx → EReal) : (⟨2, ![n, d]⟩ : Shape).Idx → EReal :=
  fun i => (Z i - rowMax Z (i 0)) - Ideal.log (∑ q : Fin d, Ideal.exp (Z (ix2 (i 0) q) - rowMax Z (i 0)))

/-- The log-softmax at (p, q) of one matrix and at (r, q) of another agree when row p of the first is row r of the second. -/
theorem logSoftmax_congr {n N d : ℕ} (Z : (⟨2, ![n, d]⟩ : Shape).Idx → EReal) (Z' : (⟨2, ![N, d]⟩ : Shape).Idx → EReal)
    (p : Fin n) (r : Fin N) (q : Fin d) (h : ∀ q' : Fin d, Z (ix2 p q') = Z' (ix2 r q')) :
    logSoftmax Z (ix2 p q) = logSoftmax Z' (ix2 r q) := by
  show (Z (ix2 p q) - (Finset.univ : Finset (Fin d)).fold max (Ideal.ofBits .f32 0xFF800000#32) (fun q' => Z (ix2 p q')))
      - Ideal.log (∑ q' : Fin d, Ideal.exp (Z (ix2 p q') - (Finset.univ : Finset (Fin d)).fold max (Ideal.ofBits .f32 0xFF800000#32) (fun q'' => Z (ix2 p q''))))
    = (Z' (ix2 r q) - (Finset.univ : Finset (Fin d)).fold max (Ideal.ofBits .f32 0xFF800000#32) (fun q' => Z' (ix2 r q')))
      - Ideal.log (∑ q' : Fin d, Ideal.exp (Z' (ix2 r q') - (Finset.univ : Finset (Fin d)).fold max (Ideal.ofBits .f32 0xFF800000#32) (fun q'' => Z' (ix2 r q''))))
  simp only [h]

end Idealize.ShloMosaic.GraphLayer

end
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.LibColumn.lean ====
/-
  A column kept as a unit trailing axis (what `jnp.sum(…, keepdims=True)` over the last axis produces), read at an
  index: a vector of length a viewed as an [a, 1] column, and an [a, 1] column broadcast along the rows of an
  [a, b] matrix. (The library has the leading-unit-axis forms and the row broadcast [1, b] → [a, b]; these are the
  trailing-unit-axis counterparts, for any extents.)
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibRowSum.lean ====
/-
  A sum along the rows of a matrix, read at an index on the extended reals: a lane reduction of an [n, k] matrix
  over its columns, into the zero accumulator, is at row r the sum over the k columns of the row's entries.
-/
import Idealize.ShloMosaic.PureOps.Ideal.Laws
import Idealize.ShloMosaic.Lib.ValueIdx

namespace Idealize.ShloMosaic.ValueIdx

open Idealize.ShloMosaic

/-- The reduced index `r` with the column `d` put back is the matrix index `(r, d)`. -/
theorem lift_rows {n k : ℕ} (h : (⟨2, ![n, k]⟩ : Shape).Reduces [1] ⟨1, ![n]⟩) (r : Fin n) (d : Fin k) :
    h.lift (ix1 r) d = ix2 r d :=
  funext fun a => Fin.ext (by match a with | ⟨0, _⟩ => rfl | ⟨1, _⟩ => rfl)

/-- A float lane sum over the columns of an `[n, k]` matrix, at row `r`, is the sum of the row's `k` entries. -/
theorem multiReduction_add_rows_apply {n k : ℕ} (src : FVec Ideal ⟨2, ![n, k]⟩ .f32)
    (h : (⟨2, ![n, k]⟩ : Shape).Reduces [1] ⟨1, ![n]⟩) (hφ : FKind.Formats .f32)
    (hacc : (0x00000000#32 : BitVec 32) = FKind.add.neutral .f32 hφ) (r : Fin n) :
    multiReduction .add [1] ⟨1, ![n]⟩ src 0x00000000#32 h hφ hacc (ix1 r) = ∑ d : Fin k, src (ix2 r d) :=
  (Ideal.multiReduction_add_single src 0x00000000#32 h hφ hacc (ix1 r)).trans
    (Finset.sum_congr rfl fun d _ => congrArg src (lift_rows h r d))

end Idealize.ShloMosaic.ValueIdx
-- ==== Proof.Block.lean ====
/-
  What a layer's kernel body computes on one block of rows, read at an index.

  The body multiplies the block of neighbourhood means and the block of the nodes' own rows by the two
  (transposed) weight matrices on the matrix unit, each product accumulated from zero, adds the two
  products, then the bias row broadcast down the block. Narrowing the operands to bfloat16 is the identity
  on extended reals, a product into the zero accumulator is the plain sum over the shared axis, so at
  (p, q) the body's value is the layer's `affine` of the blocks (`affine_block_apply`).

  The last layer's body then takes each row's maximum (a lane reduction of max from -∞), subtracts it,
  exponentiates, sums each row (a lane reduction of + from 0), and subtracts the logarithm of that sum:
  the row-wise `logSoftmax` of the block (`logSoftmax_block_apply`).
-/
import Idealize.ShloMosaic.Lib.ValueIdx
import Idealize.ShloMosaic.Lib.ValueLayout
import Idealize.ShloMosaic.Lib.Pipeline.Value
import Idealize.ShloMosaic.PureOps.Ideal.Laws
import proofs.«111528_j13056700580225_1_alg».proof.Proof.Layer
import proofs.«111528_j13056700580225_1_alg».proof.Proof.LibContract
import proofs.«111528_j13056700580225_1_alg».proof.Proof.LibColumn
import proofs.«111528_j13056700580225_1_alg».proof.Proof.LibRowSum

noncomputable section

open scoped BigOperators

namespace Idealize.ShloMosaic.GraphLayer

open Idealize.ShloMosaic Idealize.ShloMosaic.ValueIdx

/-- The two products on the matrix unit plus the broadcast bias row, at (p, q): the layer's affine map of the blocks. -/
theorem affine_block_apply {n K d : ℕ}
    (D : DotDims (⟨2, ![n, K]⟩ : Shape) (⟨2, ![K, d]⟩ : Shape) (⟨2, ![n, d]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (ht : FTy.bf16.bits < FTy.f32.bits)
    (x0 x1 : FVec Ideal ⟨2, ![n, K]⟩ .f32) (x2 x4 : FVec Ideal ⟨2, ![K, d]⟩ .f32) (x3 : FVec Ideal ⟨2, ![1, d]⟩ .f32)
    (hb : (⟨2, ![1, d]⟩ : Shape).Broadcasts ⟨2, ![n, d]⟩) (p : Fin n) (q : Fin d) :
    addf (addf (matmul D none (truncf .bf16 x0 ht) (truncf .bf16 x2 ht) (constant (F := Ideal) ⟨2, ![n, d]⟩ .f32 0x00000000#32))
               (matmul D none (truncf .bf16 x1 ht) (truncf .bf16 x4 ht) (constant (F := Ideal) ⟨2, ![n, d]⟩ .f32 0x00000000#32)))
         (broadcastTo ⟨2, ![n, d]⟩ x3 hb) (ix2 p q)
      = affine x0 x1 x2 x4 (fun c => x3 (ix2 (0 : Fin 1) c)) (ix2 p q) := by
  rw [addf_apply, addf_apply, broadcastTo_1b_ab_apply]
  simp only [matmul]
  rw [Ideal.matmul_constant_zero_apply, Ideal.matmul_constant_zero_apply]
  rw [Contract2.sum_contr_eq_sum_fin D hr hs hlc hrc hl0 hr1 (truncf .bf16 x0 ht) (truncf .bf16 x2 ht) (ix2 p q),
    Contract2.sum_contr_eq_sum_fin D hr hs hlc hrc hl0 hr1 (truncf .bf16 x1 ht) (truncf .bf16 x4 ht) (ix2 p q)]
  rfl

/-- A lane reduction of max from the literal -∞ over the columns of a matrix, at row r: the row's maximum. -/
theorem rowMax_reduction_apply {n d : ℕ} (Z : FVec Ideal ⟨2, ![n, d]⟩ .f32)
    (hred : (⟨2, ![n, d]⟩ : Shape).Reduces [1] ⟨1, ![n]⟩) (hφ : FKind.Formats .f32)
    (hmax : (0xFF800000#32 : BitVec 32) = FKind.maximumf.neutral .f32 hφ) (r : Fin n) :
    multiReduction .maximumf [1] ⟨1, ![n]⟩ Z 0xFF800000#32 hred hφ hmax (ix1 r) = rowMax Z r := by
  refine (Ideal.multiReduction_maximumf_single Z 0xFF800000#32 hred hφ hmax (ix1 r)).trans ?_
  exact Finset.fold_congr (fun q _ => congrArg Z (lift_rows hred r q))

/-- A vector of row values kept as a column and broadcast along the rows, at (p, q): the value of row p. -/
theorem column_apply {n d : ℕ} (v : FVec Ideal ⟨1, ![n]⟩ .f32)
    (hc : (⟨1, ![n]⟩ : Shape).ShapeCasts ⟨2, ![n, 1]⟩) (hb : (⟨2, ![n, 1]⟩ : Shape).Broadcasts ⟨2, ![n, d]⟩)
    (p : Fin n) (q : Fin d) :
    broadcastTo ⟨2, ![n, d]⟩ (shapeCast ⟨2, ![n, 1]⟩ v hc) hb (ix2 p q) = v (ix1 p) := by
  rw [broadcastTo_a1_ab_apply, shapeCast_a_a1_apply]

/-- The last body's second output at (p, q): the log-softmax of the block's row p at column q. -/
theorem logSoftmax_block_apply {n d : ℕ} (Z : FVec Ideal ⟨2, ![n, d]⟩ .f32)
    (hred : (⟨2, ![n, d]⟩ : Shape).Reduces [1] ⟨1, ![n]⟩) (hφ : FKind.Formats .f32)
    (hmax : (0xFF800000#32 : BitVec 32) = FKind.maximumf.neutral .f32 hφ)
    (hadd : (0x00000000#32 : BitVec 32) = FKind.add.neutral .f32 hφ)
    (hc : (⟨1, ![n]⟩ : Shape).ShapeCasts ⟨2, ![n, 1]⟩) (hb : (⟨2, ![n, 1]⟩ : Shape).Broadcasts ⟨2, ![n, d]⟩)
    (p : Fin n) (q : Fin d) :
    subf (subf Z (broadcastTo ⟨2, ![n, d]⟩ (shapeCast ⟨2, ![n, 1]⟩ (multiReduction .maximumf [1] ⟨1, ![n]⟩ Z 0xFF800000#32 hred hφ hmax) hc) hb))
        (broadcastTo ⟨2, ![n, d]⟩ (log (shapeCast ⟨2, ![n, 1]⟩ (multiReduction .add [1] ⟨1, ![n]⟩
          (exp (subf Z (broadcastTo ⟨2, ![n, d]⟩ (shapeCast ⟨2, ![n, 1]⟩ (multiReduction .maximumf [1] ⟨1, ![n]⟩ Z 0xFF800000#32 hred hφ hmax) hc) hb)))
          0x00000000#32 hred hφ hadd) hc)) hb) (ix2 p q)
      = logSoftmax Z (ix2 p q) := by
  have hsh : ∀ q' : Fin d, subf Z (broadcastTo ⟨2, ![n, d]⟩ (shapeCast ⟨2, ![n, 1]⟩ (multiReduction .maximumf [1] ⟨1, ![n]⟩ Z 0xFF800000#32 hred hφ hmax) hc) hb) (ix2 p q')
      = Z (ix2 p q') - rowMax Z p := fun q' => by
    rw [subf_apply, column_apply, rowMax_reduction_apply]
  rw [subf_apply, hsh, broadcastTo_a1_ab_apply]
  show _ - FloatOps.log (shapeCast ⟨2, ![n, 1]⟩ _ hc (ix2 p (0 : Fin 1))) = _
  rw [shapeCast_a_a1_apply, multiReduction_add_rows_apply]
  refine congrArg (fun s => (Z (ix2 p q) - rowMax Z p) - FloatOps.log s) (Finset.sum_congr rfl fun q' _ => ?_)
  show FloatOps.exp _ = _
  rw [hsh]
  rfl

end Idealize.ShloMosaic.GraphLayer

end
-- ==== Proof.Region0.lean ====
/-
  The first hidden layer's pipeline, read as one function of the arrays it finds.

  The grid has twenty points; point t works on rows 5000 t … 5000 t + 4999. Its two row windows (the
  neighbourhood means and the nodes' own features) move with the output window, the two weight matrices and the
  bias row are the same whole block at every point. So what point t writes back is block t of
  `relu (affine A H Wl Wr b)` of the five arrays: an entry (p, q) of the block reads row 5000 t + p of the two
  row arrays, which is row p of their blocks, and column q of the weights. The twenty blocks tile the
  hundred thousand rows, so the output array ends holding that function everywhere.
-/
import proofs.«111528_j13056700580225_1_alg».proof.Proof.Gen.KernelIdeal.Frame
import proofs.«111528_j13056700580225_1_alg».proof.Proof.Block

set_option maxRecDepth 16384

noncomputable section

open scoped BigOperators

namespace Cert.KernelIdeal.Hidden0

open Cert.KernelIdeal Cert.KernelIdeal.Gen Idealize.ShloMosaic Idealize.ShloMosaic.TcCoe Idealize.SL.Sem
open Idealize.ShloMosaic.ValueIdx Idealize.ShloMosaic.GraphLayer
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The product's left operand is read at the result's row. -/
theorem dot_lhs0 (j : S5000x128.Idx) (q : dot_S5000x128_S128x128_S5000x128_1_0_0_1_n_n.contr.Idx) : (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

/-- The product's right operand is read at the result's column. -/
theorem dot_rhs1 (j : S5000x128.Idx) (q : dot_S5000x128_S128x128_S5000x128_1_0_0_1_n_n.contr.Idx) : (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's stored value at (p, q): the hidden layer's value of the loaded blocks. -/
theorem pay_apply (x0 x1 : FVec Ideal S5000x128 .f32) (x2 x4 : FVec Ideal S128x128 .f32) (x3 : FVec Ideal S1x128 .f32)
    (p : Fin 5000) (q : Fin 128) :
    k0_pay1 (F := Ideal) x0 x1 x2 x4 x3 (ix2 p q) = relu (affine x0 x1 x2 x4 (fun c => x3 (ix2 (0 : Fin 1) c))) (ix2 p q) := by
  unfold k0_pay1
  simp only [shapeCast_self]
  rw [maximumf_apply]
  exact congrArg (fun z => max z (Ideal.ofBits .f32 0x00000000#32))
    (affine_block_apply dot_S5000x128_S128x128_S5000x128_1_0_0_1_n_n rfl rfl rfl rfl dot_lhs0 dot_rhs1 bitsLt_bf16_f32 x0 x1 x2 x4 x3 broadcasts_S1x128_S5000x128 p q)

/-- The printed index maps over the twenty points: the row windows sit at the output's row block, in column block 0;
    the weights and the bias are block (0, 0) always. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 19 ∧ win0_5.index t (1 : Fin 2) = 0 :=
  (by decide +kernel : ∀ t : Fin grid0.N, _)

/-- Every row block is some point's. -/
theorem idx_onto : ∀ q0 : Fin 20, ∃ t : Fin cfg0.N, win0_5.index t = ![q0.val, 0] :=
  (by decide +kernel : ∀ q0 : Fin 20, ∃ t : Fin grid0.N, win0_5.index t = ![q0.val, 0])

/-- A row window's block at point t, entry (p, k): the array's entry in the row that the output block's row p is, column k. -/
theorem read_rows0 (c : Dev nD) (t : Fin cfg0.N) (p : Fin 5000) (q k : Fin 128) :
    iblk0 V c 0 t (ix2 p k) = V c main_v30 (ix2 ((((cfg0.win 5).blk t).view.emb (ix2 p q)) 0) k) := by
  show V c main_v30 (((cfg0.win 0).blk t).view.emb (ix2 p k)) = _
  refine congrArg (V c main_v30) (funext fun a => Fin.ext ?_)
  obtain ⟨e0, e1, -⟩ := idx_facts t
  match a with
  | ⟨0, _⟩ => show win0_0.index t (0 : Fin 2) * 5000 + 1 * p.val = win0_5.index t (0 : Fin 2) * 5000 + 1 * p.val; omega
  | ⟨1, _⟩ => show win0_0.index t (1 : Fin 2) * 128 + 1 * k.val = k.val; omega

theorem read_rows1 (c : Dev nD) (t : Fin cfg0.N) (p : Fin 5000) (q k : Fin 128) :
    iblk0 V c 1 t (ix2 p k) = V c main_arg0 (ix2 ((((cfg0.win 5).blk t).view.emb (ix2 p q)) 0) k) := by
  show V c main_arg0 (((cfg0.win 1).blk t).view.emb (ix2 p k)) = _
  refine congrArg (V c main_arg0) (funext fun a => Fin.ext ?_)
  obtain ⟨-, -, e2, e3, -⟩ := idx_facts t
  match a with
  | ⟨0, _⟩ => show win0_1.index t (0 : Fin 2) * 5000 + 1 * p.val = win0_5.index t (0 : Fin 2) * 5000 + 1 * p.val; omega
  | ⟨1, _⟩ => show win0_1.index t (1 : Fin 2) * 128 + 1 * k.val = k.val; omega

/-- A weight window's block at any point, entry (k, q): the matrix's entry (k, column of the output entry). -/
theorem read_w2 (c : Dev nD) (t : Fin cfg0.N) (p : Fin 5000) (q k : Fin 128) :
    iblk0 V c 2 t (ix2 k q) = V c main_v8 (ix2 k ((((cfg0.win 5).blk t).view.emb (ix2 p q)) 1)) := by
  show V c main_v8 (((cfg0.win 2).blk t).view.emb (ix2 k q)) = _
  refine congrArg (V c main_v8) (funext fun a => Fin.ext ?_)
  obtain ⟨-, -, -, -, e4, e5, -, -, -, -, -, e11⟩ := idx_facts t
  match a with
  | ⟨0, _⟩ => show win0_2.index t (0 : Fin 2) * 128 + 1 * k.val = k.val; omega
  | ⟨1, _⟩ => show win0_2.index t (1 : Fin 2) * 128 + 1 * q.val = win0_5.index t (1 : Fin 2) * 128 + 1 * q.val; omega

theorem read_w4 (c : Dev nD) (t : Fin cfg0.N) (p : Fin 5000) (q k : Fin 128) :
    iblk0 V c 4 t (ix2 k q) = V c main_v9 (ix2 k ((((cfg0.win 5).blk t).view.emb (ix2 p q)) 1)) := by
  show V c main_v9 (((cfg0.win 4).blk t).view.emb (ix2 k q)) = _
  refine congrArg (V c main_v9) (funext fun a => Fin.ext ?_)
  obtain ⟨-, -, -, -, -, -, -, -, e8, e9, -, e11⟩ := idx_facts t
  match a with
  | ⟨0, _⟩ => show win0_4.index t (0 : Fin 2) * 128 + 1 * k.val = k.val; omega
  | ⟨1, _⟩ => show win0_4.index t (1 : Fin 2) * 128 + 1 * q.val = win0_5.index t (1 : Fin 2) * 128 + 1 * q.val; omega

/-- The bias window's block at any point, entry (0, q): the bias row's entry at the output entry's column. -/
theorem read_b3 (c : Dev nD) (t : Fin cfg0.N) (p : Fin 5000) (q : Fin 128) :
    iblk0 V c 3 t (ix2 (0 : Fin 1) q) = V c main_v14 (ix2 (0 : Fin 1) ((((cfg0.win 5).blk t).view.emb (ix2 p q)) 1)) := by
  show V c main_v14 (((cfg0.win 3).blk t).view.emb (ix2 (0 : Fin 1) q)) = _
  refine congrArg (V c main_v14) (funext fun a => Fin.ext ?_)
  obtain ⟨-, -, -, -, -, -, e6, e7, -, -, -, e11⟩ := idx_facts t
  match a with
  | ⟨0, _⟩ => show win0_3.index t (0 : Fin 2) * 1 + 1 * 0 = 0; omega
  | ⟨1, _⟩ => show win0_3.index t (1 : Fin 2) * 128 + 1 * q.val = win0_5.index t (1 : Fin 2) * 128 + 1 * q.val; omega

/-- What point t writes back is block t of the hidden layer's value of the five arrays the region finds. -/
theorem flushed_eq (c : Dev nD) (t : Fin cfg0.N) :
    (dat0 V c).flushed 5 t = ((cfg0.win 5).blk t).view.read (Elt Ideal)
      (relu (affine (V c main_v30) (V c main_arg0) (V c main_v8) (V c main_v9) (fun q => V c main_v14 (ix2 (0 : Fin 1) q)))) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  refine (pay_apply (iblk0 V c 0 t) (iblk0 V c 1 t) (iblk0 V c 2 t) (iblk0 V c 4 t) (iblk0 V c 3 t) p q).trans ?_
  refine congrArg (fun z => max z (Ideal.ofBits .f32 0x00000000#32)) ?_
  exact affine_congr (iblk0 V c 0 t) (iblk0 V c 1 t) (V c main_v30) (V c main_arg0) (iblk0 V c 2 t) (iblk0 V c 4 t) (V c main_v8) (V c main_v9)
    (fun c' => iblk0 V c 3 t (ix2 (0 : Fin 1) c')) (fun q' => V c main_v14 (ix2 (0 : Fin 1) q'))
    (ix2 p q) (((cfg0.win 5).blk t).view.emb (ix2 p q))
    (fun k => read_rows0 V c t p q k) (fun k => read_rows1 V c t p q k) (fun k => read_w2 V c t p q k) (fun k => read_w4 V c t p q k)
    (read_b3 V c t p q)

/-- An index of the output array is in point t's block iff its row is in the block's row range. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v31).slice (win0_5.rect t)).set ↔ _
  rw [View.set_slice_whole, Rect.mem_set_unit]
  exact Iff.rfl

/-- The twenty blocks cover the array: row r lies in the block of point r / 5000. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE ARRAY the first hidden layer's pipeline leaves: the layer's value of the arrays it found. -/
theorem array_eq (c : Dev nD) :
    (dat0 V c).arrAt 5 cfg0.N
      = relu (affine (V c main_v30) (V c main_arg0) (V c main_v8) (V c main_v9) (fun q => V c main_v14 (ix2 (0 : Fin 1) q))) :=
  (dat0 V c).arrAt_eq_of_cover 5 _ (fun t _ => flushed_eq V c t) cover

end Cert.KernelIdeal.Hidden0

end
-- ==== Proof.Region1.lean ====
/-
  The second hidden layer's pipeline, read as one function of the arrays it finds.

  The grid has twenty points; point t works on rows 5000 t … 5000 t + 4999. Its two row windows (the
  neighbourhood means and the first hidden layer's rows) move with the output window, the two weight matrices and the
  bias row are the same whole block at every point. So what point t writes back is block t of
  `relu (affine A H Wl Wr b)` of the five arrays: an entry (p, q) of the block reads row 5000 t + p of the two
  row arrays, which is row p of their blocks, and column q of the weights. The twenty blocks tile the
  hundred thousand rows, so the output array ends holding that function everywhere.
-/
import proofs.«111528_j13056700580225_1_alg».proof.Proof.Gen.KernelIdeal.Frame
import proofs.«111528_j13056700580225_1_alg».proof.Proof.Block

set_option maxRecDepth 16384

noncomputable section

open scoped BigOperators

namespace Cert.KernelIdeal.Hidden1

open Cert.KernelIdeal Cert.KernelIdeal.Gen Idealize.ShloMosaic Idealize.ShloMosaic.TcCoe Idealize.SL.Sem
open Idealize.ShloMosaic.ValueIdx Idealize.ShloMosaic.GraphLayer
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The product's left operand is read at the result's row. -/
theorem dot_lhs0 (j : S5000x128.Idx) (q : dot_S5000x128_S128x128_S5000x128_1_0_0_1_n_n.contr.Idx) : (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

/-- The product's right operand is read at the result's column. -/
theorem dot_rhs1 (j : S5000x128.Idx) (q : dot_S5000x128_S128x128_S5000x128_1_0_0_1_n_n.contr.Idx) : (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's stored value at (p, q): the hidden layer's value of the loaded blocks. -/
theorem pay_apply (x0 x1 : FVec Ideal S5000x128 .f32) (x2 x4 : FVec Ideal S128x128 .f32) (x3 : FVec Ideal S1x128 .f32)
    (p : Fin 5000) (q : Fin 128) :
    k1_pay1 (F := Ideal) x0 x1 x2 x4 x3 (ix2 p q) = relu (affine x0 x1 x2 x4 (fun c => x3 (ix2 (0 : Fin 1) c))) (ix2 p q) := by
  unfold k1_pay1
  simp only [shapeCast_self]
  rw [maximumf_apply]
  exact congrArg (fun z => max z (Ideal.ofBits .f32 0x00000000#32))
    (affine_block_apply dot_S5000x128_S128x128_S5000x128_1_0_0_1_n_n rfl rfl rfl rfl dot_lhs0 dot_rhs1 bitsLt_bf16_f32 x0 x1 x2 x4 x3 broadcasts_S1x128_S5000x128 p q)

/-- The printed index maps over the twenty points: the row windows sit at the output's row block, in column block 0;
    the weights and the bias are block (0, 0) always. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 19 ∧ win1_5.index t (1 : Fin 2) = 0 :=
  (by decide +kernel : ∀ t : Fin grid1.N, _)

/-- Every row block is some point's. -/
theorem idx_onto : ∀ q0 : Fin 20, ∃ t : Fin cfg1.N, win1_5.index t = ![q0.val, 0] :=
  (by decide +kernel : ∀ q0 : Fin 20, ∃ t : Fin grid1.N, win1_5.index t = ![q0.val, 0])

/-- A row window's block at point t, entry (p, k): the array's entry in the row that the output block's row p is, column k. -/
theorem read_rows0 (c : Dev nD) (t : Fin cfg1.N) (p : Fin 5000) (q k : Fin 128) :
    iblk1 V c 0 t (ix2 p k) = V c main_v45 (ix2 ((((cfg1.win 5).blk t).view.emb (ix2 p q)) 0) k) := by
  show V c main_v45 (((cfg1.win 0).blk t).view.emb (ix2 p k)) = _
  refine congrArg (V c main_v45) (funext fun a => Fin.ext ?_)
  obtain ⟨e0, e1, -⟩ := idx_facts t
  match a with
  | ⟨0, _⟩ => show win1_0.index t (0 : Fin 2) * 5000 + 1 * p.val = win1_5.index t (0 : Fin 2) * 5000 + 1 * p.val; omega
  | ⟨1, _⟩ => show win1_0.index t (1 : Fin 2) * 128 + 1 * k.val = k.val; omega

theorem read_rows1 (c : Dev nD) (t : Fin cfg1.N) (p : Fin 5000) (q k : Fin 128) :
    iblk1 V c 1 t (ix2 p k) = V c main_v31 (ix2 ((((cfg1.win 5).blk t).view.emb (ix2 p q)) 0) k) := by
  show V c main_v31 (((cfg1.win 1).blk t).view.emb (ix2 p k)) = _
  refine congrArg (V c main_v31) (funext fun a => Fin.ext ?_)
  obtain ⟨-, -, e2, e3, -⟩ := idx_facts t
  match a with
  | ⟨0, _⟩ => show win1_1.index t (0 : Fin 2) * 5000 + 1 * p.val = win1_5.index t (0 : Fin 2) * 5000 + 1 * p.val; omega
  | ⟨1, _⟩ => show win1_1.index t (1 : Fin 2) * 128 + 1 * k.val = k.val; omega

/-- A weight window's block at any point, entry (k, q): the matrix's entry (k, column of the output entry). -/
theorem read_w2 (c : Dev nD) (t : Fin cfg1.N) (p : Fin 5000) (q k : Fin 128) :
    iblk1 V c 2 t (ix2 k q) = V c main_v10 (ix2 k ((((cfg1.win 5).blk t).view.emb (ix2 p q)) 1)) := by
  show V c main_v10 (((cfg1.win 2).blk t).view.emb (ix2 k q)) = _
  refine congrArg (V c main_v10) (funext fun a => Fin.ext ?_)
  obtain ⟨-, -, -, -, e4, e5, -, -, -, -, -, e11⟩ := idx_facts t
  match a with
  | ⟨0, _⟩ => show win1_2.index t (0 : Fin 2) * 128 + 1 * k.val = k.val; omega
  | ⟨1, _⟩ => show win1_2.index t (1 : Fin 2) * 128 + 1 * q.val = win1_5.index t (1 : Fin 2) * 128 + 1 * q.val; omega

theorem read_w4 (c : Dev nD) (t : Fin cfg1.N) (p : Fin 5000) (q k : Fin 128) :
    iblk1 V c 4 t (ix2 k q) = V c main_v11 (ix2 k ((((cfg1.win 5).blk t).view.emb (ix2 p q)) 1)) := by
  show V c main_v11 (((cfg1.win 4).blk t).view.emb (ix2 k q)) = _
  refine congrArg (V c main_v11) (funext fun a => Fin.ext ?_)
  obtain ⟨-, -, -, -, -, -, -, -, e8, e9, -, e11⟩ := idx_facts t
  match a with
  | ⟨0, _⟩ => show win1_4.index t (0 : Fin 2) * 128 + 1 * k.val = k.val; omega
  | ⟨1, _⟩ => show win1_4.index t (1 : Fin 2) * 128 + 1 * q.val = win1_5.index t (1 : Fin 2) * 128 + 1 * q.val; omega

/-- The bias window's block at any point, entry (0, q): the bias row's entry at the output entry's column. -/
theorem read_b3 (c : Dev nD) (t : Fin cfg1.N) (p : Fin 5000) (q : Fin 128) :
    iblk1 V c 3 t (ix2 (0 : Fin 1) q) = V c main_v15 (ix2 (0 : Fin 1) ((((cfg1.win 5).blk t).view.emb (ix2 p q)) 1)) := by
  show V c main_v15 (((cfg1.win 3).blk t).view.emb (ix2 (0 : Fin 1) q)) = _
  refine congrArg (V c main_v15) (funext fun a => Fin.ext ?_)
  obtain ⟨-, -, -, -, -, -, e6, e7, -, -, -, e11⟩ := idx_facts t
  match a with
  | ⟨0, _⟩ => show win1_3.index t (0 : Fin 2) * 1 + 1 * 0 = 0; omega
  | ⟨1, _⟩ => show win1_3.index t (1 : Fin 2) * 128 + 1 * q.val = win1_5.index t (1 : Fin 2) * 128 + 1 * q.val; omega

/-- What point t writes back is block t of the hidden layer's value of the five arrays the region finds. -/
theorem flushed_eq (c : Dev nD) (t : Fin cfg1.N) :
    (dat1 V c).flushed 5 t = ((cfg1.win 5).blk t).view.read (Elt Ideal)
      (relu (affine (V c main_v45) (V c main_v31) (V c main_v10) (V c main_v11) (fun q => V c main_v15 (ix2 (0 : Fin 1) q)))) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  refine (pay_apply (iblk1 V c 0 t) (iblk1 V c 1 t) (iblk1 V c 2 t) (iblk1 V c 4 t) (iblk1 V c 3 t) p q).trans ?_
  refine congrArg (fun z => max z (Ideal.ofBits .f32 0x00000000#32)) ?_
  exact affine_congr (iblk1 V c 0 t) (iblk1 V c 1 t) (V c main_v45) (V c main_v31) (iblk1 V c 2 t) (iblk1 V c 4 t) (V c main_v10) (V c main_v11)
    (fun c' => iblk1 V c 3 t (ix2 (0 : Fin 1) c')) (fun q' => V c main_v15 (ix2 (0 : Fin 1) q'))
    (ix2 p q) (((cfg1.win 5).blk t).view.emb (ix2 p q))
    (fun k => read_rows0 V c t p q k) (fun k => read_rows1 V c t p q k) (fun k => read_w2 V c t p q k) (fun k => read_w4 V c t p q k)
    (read_b3 V c t p q)

/-- An index of the output array is in point t's block iff its row is in the block's row range. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v46).slice (win1_5.rect t)).set ↔ _
  rw [View.set_slice_whole, Rect.mem_set_unit]
  exact Iff.rfl

/-- The twenty blocks cover the array: row r lies in the block of point r / 5000. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE ARRAY the second hidden layer's pipeline leaves: the layer's value of the arrays it found. -/
theorem array_eq (c : Dev nD) :
    (dat1 V c).arrAt 5 cfg1.N
      = relu (affine (V c main_v45) (V c main_v31) (V c main_v10) (V c main_v11) (fun q => V c main_v15 (ix2 (0 : Fin 1) q))) :=
  (dat1 V c).arrAt_eq_of_cover 5 _ (fun t _ => flushed_eq V c t) cover

end Cert.KernelIdeal.Hidden1

end
-- ==== Proof.Region2.lean ====
/-
  The last layer's pipeline, read as two functions of the arrays it finds.

  As in the hidden layers, point t of the twenty works on rows 5000 t … 5000 t + 4999: the two row windows move
  with the two output windows, the weights ([128, 8]) and the bias row ([1, 8]) are the same block at every point.
  The first output is the layer's `affine` value with no maximum taken; the second is the row-wise log-softmax of the
  first. A row of the block is a row of the array, and the log-softmax of an entry reads only its own row, so the
  second output's block is the block of the log-softmax of the whole first output.
-/
import proofs.«111528_j13056700580225_1_alg».proof.Proof.Gen.KernelIdeal.Frame
import proofs.«111528_j13056700580225_1_alg».proof.Proof.Block

set_option maxRecDepth 16384

noncomputable section

open scoped BigOperators

namespace Cert.KernelIdeal.Last

open Cert.KernelIdeal Cert.KernelIdeal.Gen Idealize.ShloMosaic Idealize.ShloMosaic.TcCoe Idealize.SL.Sem
open Idealize.ShloMosaic.ValueIdx Idealize.ShloMosaic.GraphLayer
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The product's left operand is read at the result's row. -/
theorem dot_lhs0 (j : S5000x8.Idx) (q : dot_S5000x128_S128x8_S5000x8_1_0_0_1_n_n.contr.Idx) : (dot_S5000x128_S128x8_S5000x8_1_0_0_1_n_n.lhsIdx j q 0).val = (j 0).val := by
  unfold DotDims.lhsIdx
  rw [dif_neg (show ¬(0 : Fin S5000x128.rank) ∈ dot_S5000x128_S128x8_S5000x8_1_0_0_1_n_n.lhsBatch by decide), dif_pos (show (0 : Fin S5000x128.rank) ∈ dot_S5000x128_S128x8_S5000x8_1_0_0_1_n_n.lhsNonContracting by decide)]
  rfl

/-- The product's right operand is read at the result's column. -/
theorem dot_rhs1 (j : S5000x8.Idx) (q : dot_S5000x128_S128x8_S5000x8_1_0_0_1_n_n.contr.Idx) : (dot_S5000x128_S128x8_S5000x8_1_0_0_1_n_n.rhsIdx j q 1).val = (j 1).val := by
  unfold DotDims.rhsIdx
  rw [dif_neg (show ¬(1 : Fin S128x8.rank) ∈ dot_S5000x128_S128x8_S5000x8_1_0_0_1_n_n.rhsBatch by decide), dif_pos (show (1 : Fin S128x8.rank) ∈ dot_S5000x128_S128x8_S5000x8_1_0_0_1_n_n.rhsNonContracting by decide)]
  rfl

/-- The body's first stored value at (p, q): the layer's affine value of the loaded blocks. -/
theorem pay1_apply (x0 x1 : FVec Ideal S5000x128 .f32) (x2 x4 : FVec Ideal S128x8 .f32) (x3 : FVec Ideal S1x8 .f32)
    (p : Fin 5000) (q : Fin 8) :
    k2_pay1 (F := Ideal) x0 x1 x2 x4 x3 (ix2 p q) = affine x0 x1 x2 x4 (fun c => x3 (ix2 (0 : Fin 1) c)) (ix2 p q) := by
  unfold k2_pay1
  simp only [shapeCast_self]
  exact affine_block_apply dot_S5000x128_S128x8_S5000x8_1_0_0_1_n_n rfl rfl rfl rfl dot_lhs0 dot_rhs1 bitsLt_bf16_f32 x0 x1 x2 x4 x3 broadcasts_S1x8_S5000x8 p q

/-- The body's second stored value at (p, q): the log-softmax of the first's row p at column q. -/
theorem pay2_apply (x0 x1 : FVec Ideal S5000x128 .f32) (x2 x4 : FVec Ideal S128x8 .f32) (x3 : FVec Ideal S1x8 .f32)
    (p : Fin 5000) (q : Fin 8) :
    k2_pay2 (F := Ideal) x0 x1 x2 x4 x3 (ix2 p q) = logSoftmax (k2_pay1 (F := Ideal) x0 x1 x2 x4 x3) (ix2 p q) := by
  unfold k2_pay2
  exact logSoftmax_block_apply (k2_pay1 (F := Ideal) x0 x1 x2 x4 x3) reduces_S5000x8_S5000 (.inl rfl) rfl rfl
    shapeCasts_S5000_S5000x1 broadcasts_S5000x1_S5000x8 p q

/-- The printed index maps over the twenty points. -/
theorem idx_facts : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) ≤ 19 ∧ win2_5.index t (1 : Fin 2) = 0
    ∧ win2_6.index t (0 : Fin 2) = win2_5.index t (0 : Fin 2) ∧ win2_6.index t (1 : Fin 2) = 0 :=
  (by decide +kernel : ∀ t : Fin grid2.N, _)

/-- Every row block is some point's, for either output. -/
theorem idx_onto : ∀ q0 : Fin 20, ∃ t : Fin cfg2.N, win2_5.index t = ![q0.val, 0] ∧ win2_6.index t = ![q0.val, 0] :=
  (by decide +kernel : ∀ q0 : Fin 20, ∃ t : Fin grid2.N, win2_5.index t = ![q0.val, 0] ∧ win2_6.index t = ![q0.val, 0])

/-- The array row that row p of point t's blocks is. -/
def row (t : Fin cfg2.N) (p : Fin 5000) : Fin 100000 :=
  ⟨win2_5.index t (0 : Fin 2) * 5000 + p.val, by have h := (idx_facts t).2.2.2.2.2.2.2.2.2.2.1; have := p.isLt; omega⟩

theorem emb5 (t : Fin cfg2.N) (p : Fin 5000) (q : Fin 8) : ((cfg2.win 5).blk t).view.emb (ix2 p q) = ix2 (row t p) q := by
  funext a; apply Fin.ext
  obtain ⟨-, -, -, -, -, -, -, -, -, -, -, e11, -⟩ := idx_facts t
  match a with
  | ⟨0, _⟩ => show win2_5.index t (0 : Fin 2) * 5000 + 1 * p.val = win2_5.index t (0 : Fin 2) * 5000 + p.val; omega
  | ⟨1, _⟩ => show win2_5.index t (1 : Fin 2) * 8 + 1 * q.val = q.val; omega

theorem emb6 (t : Fin cfg2.N) (p : Fin 5000) (q : Fin 8) : ((cfg2.win 6).blk t).view.emb (ix2 p q) = ix2 (row t p) q := by
  funext a; apply Fin.ext
  obtain ⟨-, -, -, -, -, -, -, -, -, -, -, -, e12, e13⟩ := idx_facts t
  match a with
  | ⟨0, _⟩ => show win2_6.index t (0 : Fin 2) * 5000 + 1 * p.val = win2_5.index t (0 : Fin 2) * 5000 + p.val; omega
  | ⟨1, _⟩ => show win2_6.index t (1 : Fin 2) * 8 + 1 * q.val = q.val; omega

theorem read_rows0 (c : Dev nD) (t : Fin cfg2.N) (p : Fin 5000) (k : Fin 128) :
    iblk2 V c 0 t (ix2 p k) = V c main_v60 (ix2 (row t p) k) := by
  show V c main_v60 (((cfg2.win 0).blk t).view.emb (ix2 p k)) = _
  refine congrArg (V c main_v60) (funext fun a => Fin.ext ?_)
  obtain ⟨e0, e1, -⟩ := idx_facts t
  match a with
  | ⟨0, _⟩ => show win2_0.index t (0 : Fin 2) * 5000 + 1 * p.val = win2_5.index t (0 : Fin 2) * 5000 + p.val; omega
  | ⟨1, _⟩ => show win2_0.index t (1 : Fin 2) * 128 + 1 * k.val = k.val; omega

theorem read_rows1 (c : Dev nD) (t : Fin cfg2.N) (p : Fin 5000) (k : Fin 128) :
    iblk2 V c 1 t (ix2 p k) = V c main_v46 (ix2 (row t p) k) := by
  show V c main_v46 (((cfg2.win 1).blk t).view.emb (ix2 p k)) = _
  refine congrArg (V c main_v46) (funext fun a => Fin.ext ?_)
  obtain ⟨-, -, e2, e3, -⟩ := idx_facts t
  match a with
  | ⟨0, _⟩ => show win2_1.index t (0 : Fin 2) * 5000 + 1 * p.val = win2_5.index t (0 : Fin 2) * 5000 + p.val; omega
  | ⟨1, _⟩ => show win2_1.index t (1 : Fin 2) * 128 + 1 * k.val = k.val; omega

theorem read_w2 (c : Dev nD) (t : Fin cfg2.N) (k : Fin 128) (q : Fin 8) :
    iblk2 V c 2 t (ix2 k q) = V c main_v12 (ix2 k q) := by
  show V c main_v12 (((cfg2.win 2).blk t).view.emb (ix2 k q)) = _
  refine congrArg (V c main_v12) (funext fun a => Fin.ext ?_)
  obtain ⟨-, -, -, -, e4, e5, -⟩ := idx_facts t
  match a with
  | ⟨0, _⟩ => show win2_2.index t (0 : Fin 2) * 128 + 1 * k.val = k.val; omega
  | ⟨1, _⟩ => show win2_2.index t (1 : Fin 2) * 8 + 1 * q.val = q.val; omega

theorem read_w4 (c : Dev nD) (t : Fin cfg2.N) (k : Fin 128) (q : Fin 8) :
    iblk2 V c 4 t (ix2 k q) = V c main_v13 (ix2 k q) := by
  show V c main_v13 (((cfg2.win 4).blk t).view.emb (ix2 k q)) = _
  refine congrArg (V c main_v13) (funext fun a => Fin.ext ?_)
  obtain ⟨-, -, -, -, -, -, -, -, e8, e9, -⟩ := idx_facts t
  match a with
  | ⟨0, _⟩ => show win2_4.index t (0 : Fin 2) * 128 + 1 * k.val = k.val; omega
  | ⟨1, _⟩ => show win2_4.index t (1 : Fin 2) * 8 + 1 * q.val = q.val; omega

theorem read_b3 (c : Dev nD) (t : Fin cfg2.N) (q : Fin 8) :
    iblk2 V c 3 t (ix2 (0 : Fin 1) q) = V c main_v16 (ix2 (0 : Fin 1) q) := by
  show V c main_v16 (((cfg2.win 3).blk t).view.emb (ix2 (0 : Fin 1) q)) = _
  refine congrArg (V c main_v16) (funext fun a => Fin.ext ?_)
  obtain ⟨-, -, -, -, -, -, e6, e7, -⟩ := idx_facts t
  match a with
  | ⟨0, _⟩ => show win2_3.index t (0 : Fin 2) * 1 + 1 * 0 = 0; omega
  | ⟨1, _⟩ => show win2_3.index t (1 : Fin 2) * 8 + 1 * q.val = q.val; omega

/-- The layer's value of the five arrays the region finds. -/
abbrev logits (c : Dev nD) : S100000x8.Idx → EReal :=
  affine (V c main_v60) (V c main_v46) (V c main_v12) (V c main_v13) (fun q => V c main_v16 (ix2 (0 : Fin 1) q))

/-- The body's first value at row p of point t's block is the layer's value at the array's row. -/
theorem pay1_row (c : Dev nD) (t : Fin cfg2.N) (p : Fin 5000) (q : Fin 8) :
    k2_pay1 (F := Ideal) (iblk2 V c 0 t) (iblk2 V c 1 t) (iblk2 V c 2 t) (iblk2 V c 4 t) (iblk2 V c 3 t) (ix2 p q)
      = logits V c (ix2 (row t p) q) := by
  refine (pay1_apply (iblk2 V c 0 t) (iblk2 V c 1 t) (iblk2 V c 2 t) (iblk2 V c 4 t) (iblk2 V c 3 t) p q).trans ?_
  exact affine_congr (iblk2 V c 0 t) (iblk2 V c 1 t) (V c main_v60) (V c main_v46) (iblk2 V c 2 t) (iblk2 V c 4 t) (V c main_v12) (V c main_v13)
    (fun c' => iblk2 V c 3 t (ix2 (0 : Fin 1) c')) (fun q' => V c main_v16 (ix2 (0 : Fin 1) q'))
    (ix2 p q) (ix2 (row t p) q)
    (fun k => read_rows0 V c t p k) (fun k => read_rows1 V c t p k) (fun k => read_w2 V c t k q) (fun k => read_w4 V c t k q)
    (read_b3 V c t q)

/-- What point t writes back to the first output is block t of the layer's value. -/
theorem flushed5_eq (c : Dev nD) (t : Fin cfg2.N) :
    (dat2 V c).flushed 5 t = ((cfg2.win 5).blk t).view.read (Elt Ideal) (logits V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x8) hz, View.ld_unit_zero (S := S1x8) hz]
  funext j
  obtain ⟨p, q, rfl⟩ : ∃ (p : Fin 5000) (q : Fin 8), j = ix2 p q := ⟨j 0, j 1, eq_ix2 j⟩
  refine (pay1_row V c t p q).trans ?_
  exact (congrArg (logits V c) (emb5 t p q)).symm

/-- What point t writes back to the second output is block t of the log-softmax of the layer's value. -/
theorem flushed6_eq (c : Dev nD) (t : Fin cfg2.N) :
    (dat2 V c).flushed 6 t = ((cfg2.win 6).blk t).view.read (Elt Ideal) (logSoftmax (logits V c)) := by
  show (cfg2.win 6).cut (grid2.coords t) ((dat2 V c).after 6 t) = _
  rw [after2_6]
  unfold out2_6
  rw [View.canon_unit_zero hz]
  simp only [View.ld_unit_zero (S := S5000x128) hz, View.ld_unit_zero (S := S128x8) hz, View.ld_unit_zero (S := S1x8) hz]
  funext j
  obtain ⟨p, q, rfl⟩ : ∃ (p : Fin 5000) (q : Fin 8), j = ix2 p q := ⟨j 0, j 1, eq_ix2 j⟩
  refine (pay2_apply (iblk2 V c 0 t) (iblk2 V c 1 t) (iblk2 V c 2 t) (iblk2 V c 4 t) (iblk2 V c 3 t) p q).trans ?_
  refine (logSoftmax_congr _ (logits V c) p (row t p) q (fun q' => pay1_row V c t p q')).trans ?_
  exact (congrArg (logSoftmax (logits V c)) (emb6 t p q)).symm

theorem mem_blk5 (t : Fin cfg2.N) (i : S100000x8.Idx) :
    i ∈ ((cfg2.win 5).blk t).view.set ↔ ∀ a : Fin 2, win2_5.index t a * S5000x8.size a ≤ (i a).val ∧ (i a).val < win2_5.index t a * S5000x8.size a + S5000x8.size a := by
  show i ∈ ((View.whole main_v61_0).slice (win2_5.rect t)).set ↔ _
  rw [View.set_slice_whole, Rect.mem_set_unit]
  exact Iff.rfl

theorem mem_blk6 (t : Fin cfg2.N) (i : S100000x8.Idx) :
    i ∈ ((cfg2.win 6).blk t).view.set ↔ ∀ a : Fin 2, win2_6.index t a * S5000x8.size a ≤ (i a).val ∧ (i a).val < win2_6.index t a * S5000x8.size a + S5000x8.size a := by
  show i ∈ ((View.whole main_v61_1).slice (win2_6.rect t)).set ↔ _
  rw [View.set_slice_whole, Rect.mem_set_unit]
  exact Iff.rfl

theorem cover5 (i : S100000x8.Idx) : ∃ t : Fin cfg2.N, (cfg2.win 5).flush t = true ∧ i ∈ ((cfg2.win 5).blk t).view.set := by
  have hi0 : (i 0).val < 100000 := (i 0).isLt
  have hi1 : (i 1).val < 8 := (i 1).isLt
  obtain ⟨t, ht, -⟩ := idx_onto ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk5]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 8 ≤ (i 1).val ∧ (i 1).val < win2_5.index t (1 : Fin 2) * 8 + 8; omega

theorem cover6 (i : S100000x8.Idx) : ∃ t : Fin cfg2.N, (cfg2.win 6).flush t = true ∧ i ∈ ((cfg2.win 6).blk t).view.set := by
  have hi0 : (i 0).val < 100000 := (i 0).isLt
  have hi1 : (i 1).val < 8 := (i 1).isLt
  obtain ⟨t, -, ht⟩ := idx_onto ⟨(i 0).val / 5000, by omega⟩
  have q0 : win2_6.index t (0 : Fin 2) = (i 0).val / 5000 := congrFun ht 0
  have q1 : win2_6.index t (1 : Fin 2) = 0 := congrFun ht 1
  refine ⟨t, flush2_6 t, ?_⟩
  rw [mem_blk6]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 8 ≤ (i 1).val ∧ (i 1).val < win2_6.index t (1 : Fin 2) * 8 + 8; omega

/-- THE FIRST OUTPUT ARRAY: the last layer's value of the arrays the region found. -/
theorem array5_eq (c : Dev nD) : (dat2 V c).arrAt 5 cfg2.N = logits V c :=
  (dat2 V c).arrAt_eq_of_cover 5 _ (fun t _ => flushed5_eq V c t) cover5

/-- THE SECOND OUTPUT ARRAY: the row-wise log-softmax of the first. -/
theorem array6_eq (c : Dev nD) : (dat2 V c).arrAt 6 cfg2.N = logSoftmax (logits V c) :=
  (dat2 V c).arrAt_eq_of_cover 6 _ (fun t _ => flushed6_eq V c t) cover6

end Cert.KernelIdeal.Last

end
-- ==== Proof.Glue.lean ====
/-
  What each kernel region finds in the buffers it reads.

  The host operations before the first region slice the edge list into its source and destination rows, count
  each node's in-edges, transpose the six weight matrices, view the three bias vectors as rows, and form the mean
  of the input features over each node's in-neighbours. Nothing later writes these buffers, so the later regions
  find the same slices, counts, transposed weights and bias rows, and each later stretch of host operations forms
  the mean, over the same edges and counts, of the previous region's output array.
-/
import proofs.«111528_j13056700580225_1_alg».proof.Proof.Gen.KernelIdeal.Frame
import proofs.«111528_j13056700580225_1_alg».proof.Proof.Stages
import proofs.«111528_j13056700580225_1_alg».proof.Proof.Region0
import proofs.«111528_j13056700580225_1_alg».proof.Proof.Region1
import proofs.«111528_j13056700580225_1_alg».proof.Proof.Region2

set_option maxRecDepth 16384

noncomputable section

namespace Cert.KernelIdeal.Glue

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-! ## After the first stretch of host operations -/

theorem w1_main_v1 (c : Dev nD) : W1 m ρ c (Proc.devRef .tc main_v1) = Cert.ReferenceIdeal.Stages.srcRow (F := F) (m ((c : Thread nD τ).loc main_arg1)) := by
  show StableHlo.after hostOps0 (W0 m ρ c) (Proc.devRef .tc main_v1) = _
  after_results_simp <;> rfl

theorem w1_main_v3 (c : Dev nD) : W1 m ρ c (Proc.devRef .tc main_v3) = Cert.ReferenceIdeal.Stages.dstRow (F := F) (m ((c : Thread nD τ).loc main_arg1)) := by
  show StableHlo.after hostOps0 (W0 m ρ c) (Proc.devRef .tc main_v3) = _
  after_results_simp <;> rfl

theorem w1_main_v7 (c : Dev nD) : W1 m ρ c (Proc.devRef .tc main_v7) = Cert.ReferenceIdeal.Stages.countsOf (F := F) (Cert.ReferenceIdeal.Stages.dstRow (F := F) (m ((c : Thread nD τ).loc main_arg1))) := by
  show StableHlo.after hostOps0 (W0 m ρ c) (Proc.devRef .tc main_v7) = _
  after_results_simp <;> rfl

theorem w1_main_v30 (c : Dev nD) : W1 m ρ c (Proc.devRef .tc main_v30) = Cert.ReferenceIdeal.Stages.mean (F := F) (m ((c : Thread nD τ).loc main_arg1)) (m ((c : Thread nD τ).loc main_arg0)) := by
  show StableHlo.after hostOps0 (W0 m ρ c) (Proc.devRef .tc main_v30) = _
  after_results_simp <;> rfl

theorem w1_main_v8 (c : Dev nD) : W1 m ρ c (Proc.devRef .tc main_v8) = transpose S128x128 [1, 0] (m ((c : Thread nD τ).loc main_arg2)) transposes_S128x128_S128x128_1_0 := by
  show StableHlo.after hostOps0 (W0 m ρ c) (Proc.devRef .tc main_v8) = _
  after_results_simp <;> rfl

theorem w1_main_v9 (c : Dev nD) : W1 m ρ c (Proc.devRef .tc main_v9) = transpose S128x128 [1, 0] (m ((c : Thread nD τ).loc main_arg4)) transposes_S128x128_S128x128_1_0 := by
  show StableHlo.after hostOps0 (W0 m ρ c) (Proc.devRef .tc main_v9) = _
  after_results_simp <;> rfl

theorem w1_main_v10 (c : Dev nD) : W1 m ρ c (Proc.devRef .tc main_v10) = transpose S128x128 [1, 0] (m ((c : Thread nD τ).loc main_arg5)) transposes_S128x128_S128x128_1_0 := by
  show StableHlo.after hostOps0 (W0 m ρ c) (Proc.devRef .tc main_v10) = _
  after_results_simp <;> rfl

theorem w1_main_v11 (c : Dev nD) : W1 m ρ c (Proc.devRef .tc main_v11) = transpose S128x128 [1, 0] (m ((c : Thread nD τ).loc main_arg7)) transposes_S128x128_S128x128_1_0 := by
  show StableHlo.after hostOps0 (W0 m ρ c) (Proc.devRef .tc main_v11) = _
  after_results_simp <;> rfl

theorem w1_main_v12 (c : Dev nD) : W1 m ρ c (Proc.devRef .tc main_v12) = transpose S128x8 [1, 0] (m ((c : Thread nD τ).loc main_arg8)) transposes_S8x128_S128x8_1_0 := by
  show StableHlo.after hostOps0 (W0 m ρ c) (Proc.devRef .tc main_v12) = _
  after_results_simp <;> rfl

theorem w1_main_v13 (c : Dev nD) : W1 m ρ c (Proc.devRef .tc main_v13) = transpose S128x8 [1, 0] (m ((c : Thread nD τ).loc main_arg10)) transposes_S8x128_S128x8_1_0 := by
  show StableHlo.after hostOps0 (W0 m ρ c) (Proc.devRef .tc main_v13) = _
  after_results_simp <;> rfl

theorem w1_main_v14 (c : Dev nD) : W1 m ρ c (Proc.devRef .tc main_v14) = shapeCast S1x128 (m ((c : Thread nD τ).loc main_arg3)) shapeCasts_S128_S1x128 := by
  show StableHlo.after hostOps0 (W0 m ρ c) (Proc.devRef .tc main_v14) = _
  after_results_simp <;> rfl

theorem w1_main_v15 (c : Dev nD) : W1 m ρ c (Proc.devRef .tc main_v15) = shapeCast S1x128 (m ((c : Thread nD τ).loc main_arg6)) shapeCasts_S128_S1x128 := by
  show StableHlo.after hostOps0 (W0 m ρ c) (Proc.devRef .tc main_v15) = _
  after_results_simp <;> rfl

theorem w1_main_v16 (c : Dev nD) : W1 m ρ c (Proc.devRef .tc main_v16) = shapeCast S1x8 (m ((c : Thread nD τ).loc main_arg9)) shapeCasts_S8_S1x8 := by
  show StableHlo.after hostOps0 (W0 m ρ c) (Proc.devRef .tc main_v16) = _
  after_results_simp <;> rfl

/-! ## Buffers the later host stretches leave alone -/

theorem w3_keep_main_v1 (c : Dev nD) : W3 m ρ c (Proc.devRef .tc main_v1) = W2 m ρ c (Proc.devRef .tc main_v1) := by
  show StableHlo.after hostOps1 (W2 m ρ c) (Proc.devRef .tc main_v1) = _
  after_results_simp <;> rfl

theorem w3_keep_main_v3 (c : Dev nD) : W3 m ρ c (Proc.devRef .tc main_v3) = W2 m ρ c (Proc.devRef .tc main_v3) := by
  show StableHlo.after hostOps1 (W2 m ρ c) (Proc.devRef .tc main_v3) = _
  after_results_simp <;> rfl

theorem w3_keep_main_v7 (c : Dev nD) : W3 m ρ c (Proc.devRef .tc main_v7) = W2 m ρ c (Proc.devRef .tc main_v7) := by
  show StableHlo.after hostOps1 (W2 m ρ c) (Proc.devRef .tc main_v7) = _
  after_results_simp <;> rfl

theorem w3_keep_main_v31 (c : Dev nD) : W3 m ρ c (Proc.devRef .tc main_v31) = W2 m ρ c (Proc.devRef .tc main_v31) := by
  show StableHlo.after hostOps1 (W2 m ρ c) (Proc.devRef .tc main_v31) = _
  after_results_simp <;> rfl

theorem w3_keep_main_v10 (c : Dev nD) : W3 m ρ c (Proc.devRef .tc main_v10) = W2 m ρ c (Proc.devRef .tc main_v10) := by
  show StableHlo.after hostOps1 (W2 m ρ c) (Proc.devRef .tc main_v10) = _
  after_results_simp <;> rfl

theorem w3_keep_main_v11 (c : Dev nD) : W3 m ρ c (Proc.devRef .tc main_v11) = W2 m ρ c (Proc.devRef .tc main_v11) := by
  show StableHlo.after hostOps1 (W2 m ρ c) (Proc.devRef .tc main_v11) = _
  after_results_simp <;> rfl

theorem w3_keep_main_v15 (c : Dev nD) : W3 m ρ c (Proc.devRef .tc main_v15) = W2 m ρ c (Proc.devRef .tc main_v15) := by
  show StableHlo.after hostOps1 (W2 m ρ c) (Proc.devRef .tc main_v15) = _
  after_results_simp <;> rfl

theorem w3_keep_main_v12 (c : Dev nD) : W3 m ρ c (Proc.devRef .tc main_v12) = W2 m ρ c (Proc.devRef .tc main_v12) := by
  show StableHlo.after hostOps1 (W2 m ρ c) (Proc.devRef .tc main_v12) = _
  after_results_simp <;> rfl

theorem w3_keep_main_v13 (c : Dev nD) : W3 m ρ c (Proc.devRef .tc main_v13) = W2 m ρ c (Proc.devRef .tc main_v13) := by
  show StableHlo.after hostOps1 (W2 m ρ c) (Proc.devRef .tc main_v13) = _
  after_results_simp <;> rfl

theorem w3_keep_main_v16 (c : Dev nD) : W3 m ρ c (Proc.devRef .tc main_v16) = W2 m ρ c (Proc.devRef .tc main_v16) := by
  show StableHlo.after hostOps1 (W2 m ρ c) (Proc.devRef .tc main_v16) = _
  after_results_simp <;> rfl

theorem w5_keep_main_v46 (c : Dev nD) : W5 m ρ c (Proc.devRef .tc main_v46) = W4 m ρ c (Proc.devRef .tc main_v46) := by
  show StableHlo.after hostOps2 (W4 m ρ c) (Proc.devRef .tc main_v46) = _
  after_results_simp <;> rfl

theorem w5_keep_main_v12 (c : Dev nD) : W5 m ρ c (Proc.devRef .tc main_v12) = W4 m ρ c (Proc.devRef .tc main_v12) := by
  show StableHlo.after hostOps2 (W4 m ρ c) (Proc.devRef .tc main_v12) = _
  after_results_simp <;> rfl

theorem w5_keep_main_v13 (c : Dev nD) : W5 m ρ c (Proc.devRef .tc main_v13) = W4 m ρ c (Proc.devRef .tc main_v13) := by
  show StableHlo.after hostOps2 (W4 m ρ c) (Proc.devRef .tc main_v13) = _
  after_results_simp <;> rfl

theorem w5_keep_main_v16 (c : Dev nD) : W5 m ρ c (Proc.devRef .tc main_v16) = W4 m ρ c (Proc.devRef .tc main_v16) := by
  show StableHlo.after hostOps2 (W4 m ρ c) (Proc.devRef .tc main_v16) = _
  after_results_simp <;> rfl

end Cert.KernelIdeal.Glue

/-! ## The regions' outputs, at the extended reals -/

namespace Cert.KernelIdeal.Glue

open Cert.KernelIdeal Cert.KernelIdeal.Gen
open Idealize.ShloMosaic Idealize.ShloMosaic.TcCoe Idealize.SL.Sem
open Idealize.ShloMosaic.ValueIdx Idealize.ShloMosaic.GraphLayer

variable (m : (ℓ : Loc nD τ sig) → Buf (Elt Ideal) ℓ) (ρ : Dev nD → PrngReg)

/-- The first hidden layer's output, from the arguments. -/
def h0 (c : Dev nD) : S100000x128.Idx → EReal :=
  relu (affine (Cert.ReferenceIdeal.Stages.mean (F := Ideal) (m ((c : Thread nD τ).loc main_arg1)) (m ((c : Thread nD τ).loc main_arg0))) (m ((c : Thread nD τ).loc main_arg0))
    (transpose S128x128 [1, 0] (m ((c : Thread nD τ).loc main_arg2)) transposes_S128x128_S128x128_1_0) (transpose S128x128 [1, 0] (m ((c : Thread nD τ).loc main_arg4)) transposes_S128x128_S128x128_1_0)
    (fun q => shapeCast S1x128 (m ((c : Thread nD τ).loc main_arg3)) shapeCasts_S128_S1x128 (ix2 (0 : Fin 1) q)))

/-- The second hidden layer's output. -/
def h1 (c : Dev nD) : S100000x128.Idx → EReal :=
  relu (affine (Cert.ReferenceIdeal.Stages.mean (F := Ideal) (m ((c : Thread nD τ).loc main_arg1)) (h0 m c)) (h0 m c)
    (transpose S128x128 [1, 0] (m ((c : Thread nD τ).loc main_arg5)) transposes_S128x128_S128x128_1_0) (transpose S128x128 [1, 0] (m ((c : Thread nD τ).loc main_arg7)) transposes_S128x128_S128x128_1_0)
    (fun q => shapeCast S1x128 (m ((c : Thread nD τ).loc main_arg6)) shapeCasts_S128_S1x128 (ix2 (0 : Fin 1) q)))

/-- The output layer's value. -/
def z (c : Dev nD) : S100000x8.Idx → EReal :=
  affine (Cert.ReferenceIdeal.Stages.mean (F := Ideal) (m ((c : Thread nD τ).loc main_arg1)) (h1 m c)) (h1 m c)
    (transpose S128x8 [1, 0] (m ((c : Thread nD τ).loc main_arg8)) transposes_S8x128_S128x8_1_0) (transpose S128x8 [1, 0] (m ((c : Thread nD τ).loc main_arg10)) transposes_S8x128_S128x8_1_0)
    (fun q => shapeCast S1x8 (m ((c : Thread nD τ).loc main_arg9)) shapeCasts_S8_S1x8 (ix2 (0 : Fin 1) q))

/-- Region 0 leaves the first hidden layer's output in its output array. -/
theorem w2_main_v31 (c : Dev nD) : W2 m ρ c (Proc.devRef .tc main_v31) = h0 m c := by
  refine (W2_arr m ρ c 5).trans ((Hidden0.array_eq (V1 m ρ) c).trans ?_)
  rw [show V1 m ρ c main_v30 = _ from w1_main_v30 m ρ c, show V1 m ρ c main_v8 = _ from w1_main_v8 m ρ c,
    show V1 m ρ c main_v9 = _ from w1_main_v9 m ρ c, show V1 m ρ c main_v14 = _ from w1_main_v14 m ρ c]
  rfl

/-- The second stretch forms the mean of that output over the same edges. -/
theorem v3_main_v45 (c : Dev nD) : V3 m ρ c main_v45 = Cert.ReferenceIdeal.Stages.mean (F := Ideal) (m ((c : Thread nD τ).loc main_arg1)) (h0 m c) := by
  show StableHlo.after hostOps1 (W2 m ρ c) (Proc.devRef .tc main_v45) = _
  after_results_simp
  rw [W2_of_ne m ρ c main_v1 (by decide), W2_of_ne m ρ c main_v3 (by decide), W2_of_ne m ρ c main_v7 (by decide),
    w1_main_v1, w1_main_v3, w1_main_v7, w2_main_v31]
  rfl

/-- Region 1 leaves the second hidden layer's output in its output array. -/
theorem w4_main_v46 (c : Dev nD) : W4 m ρ c (Proc.devRef .tc main_v46) = h1 m c := by
  refine (W4_arr m ρ c 5).trans ((Hidden1.array_eq (V3 m ρ) c).trans ?_)
  rw [v3_main_v45,
    show V3 m ρ c main_v31 = _ from (w3_keep_main_v31 m ρ c).trans (w2_main_v31 m ρ c),
    show V3 m ρ c main_v10 = _ from (w3_keep_main_v10 m ρ c).trans ((W2_of_ne m ρ c main_v10 (by decide)).trans (w1_main_v10 m ρ c)),
    show V3 m ρ c main_v11 = _ from (w3_keep_main_v11 m ρ c).trans ((W2_of_ne m ρ c main_v11 (by decide)).trans (w1_main_v11 m ρ c)),
    show V3 m ρ c main_v15 = _ from (w3_keep_main_v15 m ρ c).trans ((W2_of_ne m ρ c main_v15 (by decide)).trans (w1_main_v15 m ρ c))]
  rfl

/-- The third stretch forms the mean of that output. -/
theorem v5_main_v60 (c : Dev nD) : V5 m ρ c main_v60 = Cert.ReferenceIdeal.Stages.mean (F := Ideal) (m ((c : Thread nD τ).loc main_arg1)) (h1 m c) := by
  show StableHlo.after hostOps2 (W4 m ρ c) (Proc.devRef .tc main_v60) = _
  after_results_simp
  rw [W4_of_ne m ρ c main_v1 (by decide), W4_of_ne m ρ c main_v3 (by decide), W4_of_ne m ρ c main_v7 (by decide),
    w3_keep_main_v1, w3_keep_main_v3, w3_keep_main_v7,
    W2_of_ne m ρ c main_v1 (by decide), W2_of_ne m ρ c main_v3 (by decide), W2_of_ne m ρ c main_v7 (by decide),
    w1_main_v1, w1_main_v3, w1_main_v7, w4_main_v46]
  rfl

/-- What the last region finds in its five input arrays. -/
theorem v5_main_v46 (c : Dev nD) : V5 m ρ c main_v46 = h1 m c := (w5_keep_main_v46 m ρ c).trans (w4_main_v46 m ρ c)
theorem v5_main_v12 (c : Dev nD) : V5 m ρ c main_v12 = transpose S128x8 [1, 0] (m ((c : Thread nD τ).loc main_arg8)) transposes_S8x128_S128x8_1_0 :=
  (w5_keep_main_v12 m ρ c).trans ((W4_of_ne m ρ c main_v12 (by decide)).trans ((w3_keep_main_v12 m ρ c).trans ((W2_of_ne m ρ c main_v12 (by decide)).trans (w1_main_v12 m ρ c))))
theorem v5_main_v13 (c : Dev nD) : V5 m ρ c main_v13 = transpose S128x8 [1, 0] (m ((c : Thread nD τ).loc main_arg10)) transposes_S8x128_S128x8_1_0 :=
  (w5_keep_main_v13 m ρ c).trans ((W4_of_ne m ρ c main_v13 (by decide)).trans ((w3_keep_main_v13 m ρ c).trans ((W2_of_ne m ρ c main_v13 (by decide)).trans (w1_main_v13 m ρ c))))
theorem v5_main_v16 (c : Dev nD) : V5 m ρ c main_v16 = shapeCast S1x8 (m ((c : Thread nD τ).loc main_arg9)) shapeCasts_S8_S1x8 :=
  (w5_keep_main_v16 m ρ c).trans ((W4_of_ne m ρ c main_v16 (by decide)).trans ((w3_keep_main_v16 m ρ c).trans ((W2_of_ne m ρ c main_v16 (by decide)).trans (w1_main_v16 m ρ c))))

/-- The last region leaves the output layer's value in its first output array … -/
theorem w6_main_v61_0 (c : Dev nD) : W6 m ρ c (Proc.devRef .tc main_v61_0) = z m c := by
  refine (W6_arr m ρ c 5).trans ((Last.array5_eq (V5 m ρ) c).trans ?_)
  unfold Last.logits
  rw [v5_main_v60, v5_main_v46, v5_main_v12, v5_main_v13, v5_main_v16]
  rfl

/-- … and its row-wise log-softmax in the second. -/
theorem w6_main_v61_1 (c : Dev nD) : W6 m ρ c (Proc.devRef .tc main_v61_1) = logSoftmax (z m c) := by
  refine (W6_arr m ρ c 6).trans ((Last.array6_eq (V5 m ρ) c).trans ?_)
  unfold Last.logits
  rw [v5_main_v60, v5_main_v46, v5_main_v12, v5_main_v13, v5_main_v16]
  rfl

end Cert.KernelIdeal.Glue

end
-- ==== Proof.RefRun.lean ====
/-
  The reference program's run, with its two results named by the stages.

  @main is a straight line of 121 host operations; every weakly fair execution terminates with each buffer at
  the fold of the operations over the launch contents. Read at the first result, the fold is the output stage of
  the second hidden stage of the first hidden stage of the input features, each stage taking the mean of the
  previous one over the same edges. The last fifteen operations are the log-softmax: they read only the first
  result and do not write it, so the second result is `lsm` of the first. (A called function's operations carry
  their operands through a change of type along an equation that is the identity; those are removed first.)
-/
import proofs.«111528_j13056700580225_1_alg».proof.Proof.RefOps
import proofs.«111528_j13056700580225_1_alg».proof.Proof.Stages
import Idealize.ShloMosaic.Lib.Pipeline.Frame

noncomputable section

namespace Cert.ReferenceIdeal.RefRun

open Cert.ReferenceIdeal Cert.ReferenceIdeal.Gen Cert.ReferenceIdeal.ValueP Cert.ReferenceIdeal.Stages
open Idealize.ShloMosaic Idealize.ShloMosaic.TcCoe Idealize.SL.Sem Idealize.ShloMosaic.StableHlo

variable {F : FTy → Type} [FloatOps F]

/-! ## A value carried to a buffer's own type and back is the value -/

theorem tb_mat128 (p : main_v30.ty = (⟨S100000x128, .f32⟩ : BufTy)) (q : main_v30.space ≠ .host) (u : main_v30.isScoped = false) (v : (⟨S100000x128, .f32⟩ : BufTy).Contents (Elt F)) :
    (TRef.of (sig := sig) (T := ⟨S100000x128, .f32⟩) main_v30 p q u).toBuf v = v := rfl
theorem ob_mat128 (p : main_v30.ty = (⟨S100000x128, .f32⟩ : BufTy)) (q : main_v30.space ≠ .host) (u : main_v30.isScoped = false) (v : main_v30.ty.Contents (Elt F)) :
    (TRef.of (sig := sig) (T := ⟨S100000x128, .f32⟩) main_v30 p q u).ofBuf v = v := rfl
theorem tb_mat8 (p : main_v84.ty = (⟨S100000x8, .f32⟩ : BufTy)) (q : main_v84.space ≠ .host) (u : main_v84.isScoped = false) (v : (⟨S100000x8, .f32⟩ : BufTy).Contents (Elt F)) :
    (TRef.of (sig := sig) (T := ⟨S100000x8, .f32⟩) main_v84 p q u).toBuf v = v := rfl
theorem ob_mat8 (p : main_v84.ty = (⟨S100000x8, .f32⟩ : BufTy)) (q : main_v84.space ≠ .host) (u : main_v84.isScoped = false) (v : main_v84.ty.Contents (Elt F)) :
    (TRef.of (sig := sig) (T := ⟨S100000x8, .f32⟩) main_v84 p q u).ofBuf v = v := rfl
theorem tb_col (p : main_call2_v3.ty = (⟨S100000x1, .f32⟩ : BufTy)) (q : main_call2_v3.space ≠ .host) (u : main_call2_v3.isScoped = false) (v : (⟨S100000x1, .f32⟩ : BufTy).Contents (Elt F)) :
    (TRef.of (sig := sig) (T := ⟨S100000x1, .f32⟩) main_call2_v3 p q u).toBuf v = v := rfl
theorem ob_col (p : main_call2_v3.ty = (⟨S100000x1, .f32⟩ : BufTy)) (q : main_call2_v3.space ≠ .host) (u : main_call2_v3.isScoped = false) (v : main_call2_v3.ty.Contents (Elt F)) :
    (TRef.of (sig := sig) (T := ⟨S100000x1, .f32⟩) main_call2_v3 p q u).ofBuf v = v := rfl
theorem tb_vec (p : main_call2_v0.ty = (⟨S100000, .f32⟩ : BufTy)) (q : main_call2_v0.space ≠ .host) (u : main_call2_v0.isScoped = false) (v : (⟨S100000, .f32⟩ : BufTy).Contents (Elt F)) :
    (TRef.of (sig := sig) (T := ⟨S100000, .f32⟩) main_call2_v0 p q u).toBuf v = v := rfl
theorem ob_vec (p : main_call2_v0.ty = (⟨S100000, .f32⟩ : BufTy)) (q : main_call2_v0.space ≠ .host) (u : main_call2_v0.isScoped = false) (v : main_call2_v0.ty.Contents (Elt F)) :
    (TRef.of (sig := sig) (T := ⟨S100000, .f32⟩) main_call2_v0 p q u).ofBuf v = v := rfl
theorem tb_scalar (p : main_call2_cst.ty = (⟨S_, .f32⟩ : BufTy)) (q : main_call2_cst.space ≠ .host) (u : main_call2_cst.isScoped = false) (v : (⟨S_, .f32⟩ : BufTy).Contents (Elt F)) :
    (TRef.of (sig := sig) (T := ⟨S_, .f32⟩) main_call2_cst p q u).toBuf v = v := rfl
theorem ob_scalar (p : main_call2_cst.ty = (⟨S_, .f32⟩ : BufTy)) (q : main_call2_cst.space ≠ .host) (u : main_call2_cst.isScoped = false) (v : main_call2_cst.ty.Contents (Elt F)) :
    (TRef.of (sig := sig) (T := ⟨S_, .f32⟩) main_call2_cst p q u).ofBuf v = v := rfl

/-! ## The three layers from the arguments -/

/-- The first hidden stage. -/
def h0 (x : (⟨S100000x128, .f32⟩ : BufTy).Contents (Elt F)) (e : (⟨S2x1600000, .i32⟩ : BufTy).Contents (Elt F))
    (Wl0 : (⟨S128x128, .f32⟩ : BufTy).Contents (Elt F)) (b0 : (⟨S128, .f32⟩ : BufTy).Contents (Elt F)) (Wr0 : (⟨S128x128, .f32⟩ : BufTy).Contents (Elt F)) :
    (⟨S100000x128, .f32⟩ : BufTy).Contents (Elt F) :=
  hidden (mean e x) x Wl0 b0 Wr0

/-- The second hidden stage, of the first. -/
def h1 (x : (⟨S100000x128, .f32⟩ : BufTy).Contents (Elt F)) (e : (⟨S2x1600000, .i32⟩ : BufTy).Contents (Elt F))
    (Wl0 : (⟨S128x128, .f32⟩ : BufTy).Contents (Elt F)) (b0 : (⟨S128, .f32⟩ : BufTy).Contents (Elt F)) (Wr0 : (⟨S128x128, .f32⟩ : BufTy).Contents (Elt F))
    (Wl1 : (⟨S128x128, .f32⟩ : BufTy).Contents (Elt F)) (b1 : (⟨S128, .f32⟩ : BufTy).Contents (Elt F)) (Wr1 : (⟨S128x128, .f32⟩ : BufTy).Contents (Elt F)) :
    (⟨S100000x128, .f32⟩ : BufTy).Contents (Elt F) :=
  hidden (mean e (h0 x e Wl0 b0 Wr0)) (h0 x e Wl0 b0 Wr0) Wl1 b1 Wr1

/-- The output stage, of the second hidden stage. -/
def z (x : (⟨S100000x128, .f32⟩ : BufTy).Contents (Elt F)) (e : (⟨S2x1600000, .i32⟩ : BufTy).Contents (Elt F))
    (Wl0 : (⟨S128x128, .f32⟩ : BufTy).Contents (Elt F)) (b0 : (⟨S128, .f32⟩ : BufTy).Contents (Elt F)) (Wr0 : (⟨S128x128, .f32⟩ : BufTy).Contents (Elt F))
    (Wl1 : (⟨S128x128, .f32⟩ : BufTy).Contents (Elt F)) (b1 : (⟨S128, .f32⟩ : BufTy).Contents (Elt F)) (Wr1 : (⟨S128x128, .f32⟩ : BufTy).Contents (Elt F))
    (Wl2 : (⟨S8x128, .f32⟩ : BufTy).Contents (Elt F)) (b2 : (⟨S8, .f32⟩ : BufTy).Contents (Elt F)) (Wr2 : (⟨S8x128, .f32⟩ : BufTy).Contents (Elt F)) :
    (⟨S100000x8, .f32⟩ : BufTy).Contents (Elt F) :=
  last (mean e (h1 x e Wl0 b0 Wr0 Wl1 b1 Wr1)) (h1 x e Wl0 b0 Wr0 Wl1 b1 Wr1) Wl2 b2 Wr2

/-! ## The fold read at the two results -/

set_option maxRecDepth 16384 in
set_option maxHeartbeats 4000000 in
/-- The first result: the output stage of the arguments. -/
theorem first_result (W : Valuation τ sig (Elt F)) :
    after (ops (F := F)) W (Proc.devRef .tc main_v83)
      = z (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) := by
  after_results_simp
  repeat rw [tb_mat128]
  repeat rw [ob_mat128]
  repeat rw [tb_scalar]
  repeat rw [ob_scalar]
  all_goals first | rfl | decide

set_option maxRecDepth 16384 in
set_option maxHeartbeats 4000000 in
/-- The last fifteen operations leave the log-softmax of what the first result's buffer holds … -/
theorem tail_result (W' : Valuation τ sig (Elt F)) :
    after (List.drop 106 (ops (F := F))) W' (Proc.devRef .tc main_v84) = lsm (W' (Proc.devRef .tc main_v83)) := by
  simp only [ops, List.drop_succ_cons, List.drop_zero]
  after_results_simp
  repeat rw [tb_mat8]
  repeat rw [ob_mat8]
  repeat rw [tb_col]
  repeat rw [ob_col]
  repeat rw [tb_vec]
  repeat rw [ob_vec]
  repeat rw [tb_scalar]
  repeat rw [ob_scalar]
  all_goals first | rfl | decide

set_option maxRecDepth 16384 in
/-- … and leave that buffer alone. -/
theorem tail_keeps (W' : Valuation τ sig (Elt F)) :
    after (List.drop 106 (ops (F := F))) W' (Proc.devRef .tc main_v83) = W' (Proc.devRef .tc main_v83) := by
  simp only [ops, List.drop_succ_cons, List.drop_zero]
  after_results_simp <;> rfl

/-- The second result: the log-softmax of the first. -/
theorem second_result (W : Valuation τ sig (Elt F)) :
    after (ops (F := F)) W (Proc.devRef .tc main_v84)
      = lsm (z (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10))) := by
  have hs : after (ops (F := F)) W = after (List.drop 106 (ops (F := F))) (after (List.take 106 (ops (F := F))) W) := by
    rw [← StableHlo.after_append, List.take_append_drop]
  rw [hs, tail_result, ← tail_keeps (after (List.take 106 (ops (F := F))) W), ← hs, first_result]

/-! ## The run -/

set_option maxRecDepth 8192 in
set_option maxHeartbeats 48400000 in
/-- Every weakly fair execution of @main terminates with the two results at the output stage and its log-softmax,
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v83)
        = z (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v84)
        = lsm (z (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v83).trans (first_result _), (h c main_v84).trans (second_result _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl)⟩)
    (run_seq scopedRefs_eq scopedSems_eq defs main (fun _ => ops) main_eq (fun _ => ops_sub) m ρ)

end Cert.ReferenceIdeal.RefRun

end
-- ==== Proof.RefMath.lean ====
/-
  The reference's three kinds of stage, read index by index on the extended reals.

  A host matrix product is the plain sum over the shared axis; a bias vector broadcast to a row and then down the
  rows reads, at (r, c), the vector's entry c; a scalar splat reads the scalar. So a hidden stage at (r, c) is
  max ((∑ A (r, k) · Wlᵀ (k, c) + b c) + ∑ H (r, k) · Wrᵀ (k, c), 0): the layer's `relu (affine …)` with the three
  terms added in the other order (`affine_other_order`). The output stage is the same without the maximum.
  The log-softmax stage takes the row maximum as max (-∞, the host's max-reduction from -∞), which is that
  reduction itself since the fold already starts from -∞ and max is idempotent; the host's sum-reduction from 0 is
  0 + the row's sum.
-/
import proofs.«111528_j13056700580225_1_alg».proof.Proof.Stages
import proofs.«111528_j13056700580225_1_alg».proof.Proof.Layer
import proofs.«111528_j13056700580225_1_alg».proof.Proof.LibContract
import Idealize.ShloMosaic.Lib.Pipeline.Value
import Idealize.ShloMosaic.Lib.ValueIdx
import Idealize.ShloMosaic.PureOps.Ideal.Laws

noncomputable section

open scoped BigOperators

namespace Cert.ReferenceIdeal.Stages

open Cert.ReferenceIdeal Cert.ReferenceIdeal.Gen Idealize.ShloMosaic Idealize.ShloMosaic.ValueIdx Idealize.ShloMosaic.GraphLayer

/-! ## The pieces -/

/-- A host matrix product [n, K] · [K, d] at an index: the sum over the shared coordinate. -/
theorem dotGeneral_ix {n K d : ℕ} (D : DotDims (⟨2, ![n, K]⟩ : Shape) (⟨2, ![K, d]⟩ : Shape) (⟨2, ![n, d]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : FVec Ideal ⟨2, ![n, K]⟩ .f32) (r : FVec Ideal ⟨2, ![K, d]⟩ .f32) (j : (⟨2, ![n, d]⟩ : Shape).Idx) :
    Host.dotGeneral D none l r j = ∑ k : Fin K, l (ix2 (j 0) k) * r (ix2 k (j 1)) := by
  simp only [Host.dotGeneral]
  rw [Ideal.dotGeneral_apply]
  exact Contract2.sum_contr_eq_sum_fin D hr hs hlc hrc hl0 hr1 l r j

/-- A vector made a row and the row repeated down n rows, at (r, c): the vector's entry c. -/
theorem bias_rows_apply {n d : ℕ} (b : (⟨1, ![d]⟩ : Shape).Idx → EReal)
    (h1 : (⟨1, ![d]⟩ : Shape).BroadcastsInDim ⟨2, ![1, d]⟩ ![1]) (h2 : (⟨2, ![1, d]⟩ : Shape).BroadcastsInDim ⟨2, ![n, d]⟩ ![0, 1])
    (i : (⟨2, ![n, d]⟩ : Shape).Idx) :
    broadcastInDim ⟨2, ![n, d]⟩ ![0, 1] h2 (broadcastInDim ⟨2, ![1, d]⟩ ![1] h1 b) i = b (ix1 (i 1)) := by
  refine (broadcastInDim_apply _ h2 _ i (ix2 (0 : Fin 1) (i 1)) (fun a => ?_)).trans ?_
  · match a with
    | ⟨0, _⟩ => show (0 : ℕ) = if (1 : ℕ) = 1 then 0 else (i 0).val; rw [if_pos rfl]
    | ⟨1, _⟩ =>
      show (i 1).val = if d = 1 then 0 else (i 1).val
      split
      · have hlt : (i 1).val < d := (i 1).isLt; omega
      · rfl
  · refine broadcastInDim_apply _ h1 b (ix2 (0 : Fin 1) (i 1)) (ix1 (i 1)) (fun a => ?_)
    match a with
    | ⟨0, _⟩ =>
      show (i 1).val = if d = 1 then 0 else (i 1).val
      split
      · have hlt : (i 1).val < d := (i 1).isLt; omega
      · rfl

/-- A scalar splat at any index: the scalar. -/
theorem splat_apply {s : Shape} (h : (⟨0, ![]⟩ : Shape).BroadcastsInDim s ![]) (x : (⟨0, ![]⟩ : Shape).Idx → EReal) (i : s.Idx) :
    broadcastInDim s ![] h x i = x ix0 :=
  broadcastInDim_apply _ h x i ix0 (fun a => a.elim0)

/-- A column [n, 1] repeated along d columns, at (r, c): the column's entry r. -/
theorem column_cols_apply {n d : ℕ} (w : (⟨2, ![n, 1]⟩ : Shape).Idx → EReal)
    (h : (⟨2, ![n, 1]⟩ : Shape).BroadcastsInDim ⟨2, ![n, d]⟩ ![0, 1]) (r : Fin n) (c : Fin d) :
    broadcastInDim ⟨2, ![n, d]⟩ ![0, 1] h w (ix2 r c) = w (ix2 r (0 : Fin 1)) := by
  refine broadcastInDim_apply _ h w (ix2 r c) (ix2 r (0 : Fin 1)) (fun a => ?_)
  match a with
  | ⟨0, _⟩ =>
    show r.val = if n = 1 then 0 else r.val
    split
    · have := r.isLt; omega
    · rfl
  | ⟨1, _⟩ => show (0 : ℕ) = if (1 : ℕ) = 1 then 0 else c.val; rw [if_pos rfl]

/-- A vector [n] made a column [n, 1], at (r, u): the vector's entry r. -/
theorem vector_column_apply {n : ℕ} (v : (⟨1, ![n]⟩ : Shape).Idx → EReal)
    (h : (⟨1, ![n]⟩ : Shape).BroadcastsInDim ⟨2, ![n, 1]⟩ ![0]) (r : Fin n) (u : Fin 1) :
    broadcastInDim ⟨2, ![n, 1]⟩ ![0] h v (ix2 r u) = v (ix1 r) := by
  refine broadcastInDim_apply _ h v (ix2 r u) (ix1 r) (fun a => ?_)
  match a with
  | ⟨0, _⟩ =>
    show r.val = if n = 1 then 0 else r.val
    split
    · have := r.isLt; omega
    · rfl

/-- The host's logarithm and exponential, elementwise on extended reals. -/
theorem hostLog_apply {s : Shape} (v : FVec Ideal s .f32) (i : s.Idx) : Host.log v i = Ideal.log (v i) := rfl
theorem hostExp_apply {s : Shape} (v : FVec Ideal s .f32) (i : s.Idx) : Host.exp v i = Ideal.exp (v i) := rfl

/-- max of a and a fold of max that starts from a is that fold: max is idempotent, commutative and associative. -/
theorem max_fold_start {ι : Type*} (s : Finset ι) (a : EReal) (f : ι → EReal) : max a (s.fold max a f) = s.fold max a f := by
  classical
  induction s using Finset.induction_on with
  | empty => simp
  | insert x s hx ih => rw [Finset.fold_insert hx, max_left_comm, ih]

/-! ## The records' index facts -/

theorem d128_lhs0 (j : S100000x128.Idx) (q : dot_S100000x128_S128x128_S100000x128_1_0_0_1_n_n.contr.Idx) : (dot_S100000x128_S128x128_S100000x128_1_0_0_1_n_n.lhsIdx j q 0).val = (j 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl

theorem d128_rhs1 (j : S100000x128.Idx) (q : dot_S100000x128_S128x128_S100000x128_1_0_0_1_n_n.contr.Idx) : (dot_S100000x128_S128x128_S100000x128_1_0_0_1_n_n.rhsIdx j q 1).val = (j 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

theorem d8_lhs0 (j : S100000x8.Idx) (q : dot_S100000x128_S128x8_S100000x8_1_0_0_1_n_n.contr.Idx) : (dot_S100000x128_S128x8_S100000x8_1_0_0_1_n_n.lhsIdx j q 0).val = (j 0).val := by
  unfold DotDims.lhsIdx
  rw [dif_neg (show ¬(0 : Fin S100000x128.rank) ∈ dot_S100000x128_S128x8_S100000x8_1_0_0_1_n_n.lhsBatch by decide), dif_pos (show (0 : Fin S100000x128.rank) ∈ dot_S100000x128_S128x8_S100000x8_1_0_0_1_n_n.lhsNonContracting by decide)]
  rfl

theorem d8_rhs1 (j : S100000x8.Idx) (q : dot_S100000x128_S128x8_S100000x8_1_0_0_1_n_n.contr.Idx) : (dot_S100000x128_S128x8_S100000x8_1_0_0_1_n_n.rhsIdx j q 1).val = (j 1).val := by
  unfold DotDims.rhsIdx
  rw [dif_neg (show ¬(1 : Fin S128x8.rank) ∈ dot_S100000x128_S128x8_S100000x8_1_0_0_1_n_n.rhsBatch by decide), dif_pos (show (1 : Fin S128x8.rank) ∈ dot_S100000x128_S128x8_S100000x8_1_0_0_1_n_n.rhsNonContracting by decide)]
  rfl

/-! ## The stages -/

/-- A hidden stage is the layer's value of its operands, the weights transposed. -/
theorem hidden_eq (A H : FVec Ideal S100000x128 .f32) (Wl : FVec Ideal S128x128 .f32) (b : FVec Ideal S128 .f32) (Wr : FVec Ideal S128x128 .f32) :
    hidden (F := Ideal) A H Wl b Wr
      = relu (affine A H (transpose S128x128 [1, 0] Wl transposes_S128x128_S128x128_1_0)
          (transpose S128x128 [1, 0] Wr transposes_S128x128_S128x128_1_0) (fun q => b (ix1 q))) := by
  funext i
  unfold hidden
  rw [maximumf_apply, addf_apply, addf_apply, dotGeneral_ix dot_S100000x128_S128x128_S100000x128_1_0_0_1_n_n rfl rfl rfl rfl d128_lhs0 d128_rhs1,
    dotGeneral_ix dot_S100000x128_S128x128_S100000x128_1_0_0_1_n_n rfl rfl rfl rfl d128_lhs0 d128_rhs1, bias_rows_apply, splat_apply]
  exact congrArg (fun z => max z (Ideal.ofBits .f32 0x00000000#32))
    (affine_other_order A H _ _ (fun q => b (ix1 q)) i)

/-- The output stage is the layer's affine value of its operands, the weights transposed. -/
theorem last_eq (A H : FVec Ideal S100000x128 .f32) (Wl : FVec Ideal S8x128 .f32) (b : FVec Ideal S8 .f32) (Wr : FVec Ideal S8x128 .f32) :
    last (F := Ideal) A H Wl b Wr
      = affine A H (transpose S128x8 [1, 0] Wl transposes_S8x128_S128x8_1_0)
          (transpose S128x8 [1, 0] Wr transposes_S8x128_S128x8_1_0) (fun q => b (ix1 q)) := by
  funext i
  unfold last
  rw [addf_apply, addf_apply, dotGeneral_ix dot_S100000x128_S128x8_S100000x8_1_0_0_1_n_n rfl rfl rfl rfl d8_lhs0 d8_rhs1,
    dotGeneral_ix dot_S100000x128_S128x8_S100000x8_1_0_0_1_n_n rfl rfl rfl rfl d8_lhs0 d8_rhs1, bias_rows_apply]
  exact affine_other_order A H _ _ (fun q => b (ix1 q)) i

/-- The host's row maximum, at row r: the fold of max from -∞ over the row. -/
theorem rowMax_host_apply (X : FVec Ideal S100000x8 .f32) (r : Fin 100000) :
    maximumf (broadcastInDim S100000 ![] bcast_S_S100000 (constant (F := Ideal) S_ .f32 0xFF800000#32))
        (Host.reduce FloatOps.maximumf X (constant (F := Ideal) S_ .f32 0xFF800000#32) reducesTo_S100000x8_S100000_d1 h_S_) (ix1 r)
      = rowMax X r := by
  rw [maximumf_apply, splat_apply]
  haveI : Std.Commutative (FloatOps.maximumf (F := Ideal) (φ := .f32)) := ⟨fun a b => max_comm a b⟩
  haveI : Std.Associative (FloatOps.maximumf (F := Ideal) (φ := .f32)) := ⟨fun a b c => max_assoc a b c⟩
  rw [Host.reduce_eq_fold_single FloatOps.maximumf X _ reducesTo_S100000x8_S100000_d1 (by decide) h_S_ (ix1 r)]
  refine (max_fold_start _ _ _).trans ?_
  exact Finset.fold_congr (fun q _ => congrArg X (funext fun a => Fin.ext (by match a with | ⟨0, _⟩ => rfl | ⟨1, _⟩ => rfl)))

/-- The log-softmax stage is the row-wise log-softmax. -/
theorem lsm_eq (X : FVec Ideal S100000x8 .f32) : lsm (F := Ideal) X = logSoftmax X := by
  funext i
  obtain ⟨r, q, rfl⟩ : ∃ (r : Fin 100000) (q : Fin 8), i = ix2 r q := ⟨i 0, i 1, eq_ix2 i⟩
  unfold lsm
  have hsh : ∀ j : S100000x8.Idx, (j 0).val = r.val →
      subf X (broadcastInDim S100000x8 ![0, 1] bcast_S100000x1_S100000x8_0_1 (broadcastInDim S100000x1 ![0] bcast_S100000_S100000x1_0
        (maximumf (broadcastInDim S100000 ![] bcast_S_S100000 (constant (F := Ideal) S_ .f32 0xFF800000#32))
          (Host.reduce FloatOps.maximumf X (constant (F := Ideal) S_ .f32 0xFF800000#32) reducesTo_S100000x8_S100000_d1 h_S_)))) j
        = X j - rowMax X r := fun j hj => by
    obtain ⟨r', q', rfl⟩ : ∃ (r' : Fin 100000) (q' : Fin 8), j = ix2 r' q' := ⟨j 0, j 1, eq_ix2 j⟩
    have hr : r' = r := Fin.ext hj
    subst hr
    rw [subf_apply, column_cols_apply, vector_column_apply, rowMax_host_apply]
  rw [subf_apply, hsh (ix2 r q) rfl, column_cols_apply, hostLog_apply, vector_column_apply]
  simp only [Host.reduceAdd, Ideal.hostReduceAdd_def]
  rw [Ideal.hostReduceAdd_single reducesTo_S100000x8_S100000_d1 (by decide), constant_apply, Ideal.ofBits_zero_f32, zero_add]
  refine congrArg (fun s => (X (ix2 r q) - rowMax X r) - Ideal.log s) (Finset.sum_congr rfl fun q' _ => ?_)
  rw [hostExp_apply]
  exact congrArg Ideal.exp ((hsh _ rfl).trans (congrArg (fun j => X j - rowMax X r)
    (funext fun a => Fin.ext (by match a with | ⟨0, _⟩ => rfl | ⟨1, _⟩ => rfl))))

end Cert.ReferenceIdeal.Stages

end
-- ==== Proof.Bridge.lean ====
/-
  The reference's stages and the kernel's layers are one function of the eleven arguments.

  The reference's output is `last (mean e h1) h1 …` over `hidden` stages; the kernel's three regions leave
  `affine` / `relu (affine …)` of the same means, the same transposed weights and the bias viewed as a row. A
  hidden stage IS `relu (affine …)` and the output stage IS `affine …` (the three terms added in the other order),
  and a bias vector viewed as a [1, d] row reads, at (0, q), the vector's entry q. So the two outputs are equal,
  and with them their log-softmax.
-/
import proofs.«111528_j13056700580225_1_alg».proof.Proof.Glue
import proofs.«111528_j13056700580225_1_alg».proof.Proof.RefRun
import proofs.«111528_j13056700580225_1_alg».proof.Proof.RefMath
import Idealize.ShloMosaic.Lib.ValueLayout

set_option maxRecDepth 16384

noncomputable section

namespace Cert.KernelIdeal.Bridge

open Cert.KernelIdeal Cert.KernelIdeal.Gen
open Idealize.ShloMosaic Idealize.ShloMosaic.TcCoe Idealize.SL.Sem
open Idealize.ShloMosaic.ValueIdx Idealize.ShloMosaic.GraphLayer

variable (m : (ℓ : Loc nD τ sig) → Buf (Elt Ideal) ℓ)

/-- The reference's first result, of the kernel's argument arrays, is the kernel's first result. -/
theorem output_eq (c : Dev nD) :
    Cert.ReferenceIdeal.RefRun.z (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      = Glue.z m c := by
  unfold Glue.z Glue.h1 Glue.h0 Cert.ReferenceIdeal.RefRun.z Cert.ReferenceIdeal.RefRun.h1 Cert.ReferenceIdeal.RefRun.h0
  generalize (m ((c : Thread nD τ).loc main_arg0)) = x
  generalize (m ((c : Thread nD τ).loc main_arg1)) = e
  generalize (m ((c : Thread nD τ).loc main_arg2)) = Wl0
  generalize (m ((c : Thread nD τ).loc main_arg3)) = b0
  generalize (m ((c : Thread nD τ).loc main_arg4)) = Wr0
  generalize (m ((c : Thread nD τ).loc main_arg5)) = Wl1
  generalize (m ((c : Thread nD τ).loc main_arg6)) = b1
  generalize (m ((c : Thread nD τ).loc main_arg7)) = Wr1
  generalize (m ((c : Thread nD τ).loc main_arg8)) = Wl2
  generalize (m ((c : Thread nD τ).loc main_arg9)) = b2
  generalize (m ((c : Thread nD τ).loc main_arg10)) = Wr2
  rw [Cert.ReferenceIdeal.Stages.last_eq, Cert.ReferenceIdeal.Stages.hidden_eq, Cert.ReferenceIdeal.Stages.hidden_eq]
  simp only [shapeCast_a_1a_apply]

end Cert.KernelIdeal.Bridge

end
-- ==== Proof.lean ====
/-
  The proof of `Cert.Claim`: a three-layer mean-aggregating graph network with a log-softmax head, its node
  projections in three tiled kernels, against the plain reference.

  Frames: both printed kernel programs run, never fault and leave their arguments as launched (the generated frame
  certificates); the reference is a straight line of host operations, and its run gives its frame. The idealization
  rewrote nothing, so `preserves` asks nothing.

  Values, on the extended reals. Each layer takes the mean A of the previous layer's rows over every node's
  in-neighbours (the same gather, scatter-add and division in both programs, never opened) and the previous rows H,
  and forms A · Wlᵀ + H · Wrᵀ + b. The kernel adds the two products first and the reference adds the bias before the
  second product; addition of extended reals is commutative and associative, so no finiteness is needed. A kernel
  region works on twenty blocks of 5000 rows; a row of the result reads only its own row of A and H, so the blocks
  are the blocks of one whole-array function and they tile the array. The last region also stores the row-wise
  log-softmax x - M - log ∑ exp (x - M) of its first output, M the row maximum taken from -∞; the reference's
  max (-∞, ·) around its own maximum changes nothing.
-/
import proofs.«111528_j13056700580225_1_alg».proof.Defs
import proofs.«111528_j13056700580225_1_alg».proof.Proof.Gen.Kernel
import proofs.«111528_j13056700580225_1_alg».proof.Proof.Gen.Kernel.Skeleton
import proofs.«111528_j13056700580225_1_alg».proof.Proof.Gen.Kernel.Launch
import proofs.«111528_j13056700580225_1_alg».proof.Proof.Gen.Kernel.Points
import proofs.«111528_j13056700580225_1_alg».proof.Proof.Gen.Kernel.Frame
import proofs.«111528_j13056700580225_1_alg».proof.Proof.Gen.KernelIdeal
import proofs.«111528_j13056700580225_1_alg».proof.Proof.Gen.KernelIdeal.Skeleton
import proofs.«111528_j13056700580225_1_alg».proof.Proof.Gen.KernelIdeal.Launch
import proofs.«111528_j13056700580225_1_alg».proof.Proof.Gen.KernelIdeal.Points
import proofs.«111528_j13056700580225_1_alg».proof.Proof.Gen.KernelIdeal.Frame
import proofs.«111528_j13056700580225_1_alg».proof.Proof.Gen.ReferenceIdeal
import proofs.«111528_j13056700580225_1_alg».proof.Proof.Gen.Pre_finite_inputs
import proofs.«111528_j13056700580225_1_alg».proof.Proof.KernelRun
import proofs.«111528_j13056700580225_1_alg».proof.Proof.Glue
import proofs.«111528_j13056700580225_1_alg».proof.Proof.RefRun
import proofs.«111528_j13056700580225_1_alg».proof.Proof.RefMath
import proofs.«111528_j13056700580225_1_alg».proof.Proof.Bridge
import Idealize.ShloMosaic.Adequacy
import Idealize.ShloMosaic.Init

noncomputable section

namespace Cert.Proof

open Idealize.ShloMosaic Idealize.SL.Sem Idealize.ShloMosaic.GraphLayer

theorem frame_kernel : Cert.frame_Kernel := fun m ρ _ => Cert.Kernel.Gen.frame m ρ

theorem frame_kernelIdeal : Cert.frame_KernelIdeal := fun m ρ _ => Cert.KernelIdeal.Gen.frame m ρ

/-- The reference's run, its two results dropped. -/
theorem frame_referenceIdeal : Cert.frame_ReferenceIdeal := fun m ρ _ =>
  (θ_run Cert.ReferenceIdeal.defs _ _).mono (fun _ h c => (h c).2.2) (Cert.ReferenceIdeal.RefRun.run (F := Ideal) m ρ)

theorem preserves : Cert.preserves_Kernel_KernelIdeal := trivial

/-- Both programs end with the output layer's value and its row-wise log-softmax, of arguments that agree. -/
theorem algebraic : Cert.algebraic_KernelIdeal_ReferenceIdeal := by
  intro m ρ m' ρ' _ hagree
  refine ⟨fun c => Cert.KernelIdeal.Glue.z m c, fun c => logSoftmax (Cert.KernelIdeal.Glue.z m c), ?_, ?_⟩
  · exact (θ_run Cert.KernelIdeal.defs _ _).mono
      (fun r h c => ⟨(h c).1.trans (Cert.KernelIdeal.Glue.w6_main_v61_0 m ρ c),
        (h c).2.1.trans (Cert.KernelIdeal.Glue.w6_main_v61_1 m ρ c), (h c).2.2⟩)
      (Cert.KernelIdeal.Results.run m ρ)
  · refine (θ_run Cert.ReferenceIdeal.defs _ _).mono (fun r h c => ?_) (Cert.ReferenceIdeal.RefRun.run (F := Ideal) m' ρ')
    obtain ⟨e0, e1, e2, e3, e4, e5, e6, e7, e8, e9, e10⟩ := hagree c
    have hz := (h c).1
    have hl := (h c).2.1
    rw [e0, e1, e2, e3, e4, e5, e6, e7, e8, e9, e10] at hz hl
    refine ⟨hz.trans (Cert.KernelIdeal.Bridge.output_eq m c), hl.trans ?_, (h c).2.2⟩
    rw [Cert.KernelIdeal.Bridge.output_eq m c]
    exact Cert.ReferenceIdeal.Stages.lsm_eq _

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_kernel, Cert.Proof.frame_kernelIdeal, Cert.Proof.frame_referenceIdeal, Cert.Proof.preserves, Cert.Proof.algebraic⟩

end
